-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x128 : Shape := ⟨2, ![100000, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S100000x64 .f32) (main_arg1 : FVec F S100000x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S100000x64 : Shape := ⟨2, ![100000, 64]⟩
abbrev S100000x128 : Shape := ⟨2, ![100000, 128]⟩
abbrev S64x100000 : Shape := ⟨2, ![64, 100000]⟩
abbrev S64x12800 : Shape := ⟨2, ![64, 12800]⟩
abbrev S12800x128 : Shape := ⟨2, ![12800, 128]⟩
abbrev S7x64x12800 : Shape := ⟨3, ![7, 64, 12800]⟩
abbrev S64x128 : Shape := ⟨2, ![64, 128]⟩
abbrev S1x64x12800 : Shape := ⟨3, ![1, 64, 12800]⟩

abbrev nBuf : Space → Nat
  | .hbm => 4
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S100000x128, .f32⟩
  | .hbm, ⟨2, _⟩ => ⟨S64x100000, .f32⟩
  | .hbm, ⟨3, _⟩ => ⟨S100000x128, .f32⟩
  | .local _ .vmem, ⟨0, _⟩ => ⟨S64x12800, .f32⟩
  | .local _ .vmem, ⟨1, _⟩ => ⟨S64x12800, .f32⟩
  | .local _ .vmem, ⟨2, _⟩ => ⟨S12800x128, .f32⟩
  | .local _ .vmem, ⟨3, _⟩ => ⟨S12800x128, .f32⟩
  | .local _ .vmem, ⟨4, _⟩ => ⟨S12800x128, .f32⟩
  | .local _ .vmem, ⟨5, _⟩ => ⟨S12800x128, .f32⟩
  | .local _ .vmem, ⟨6, _⟩ => ⟨S7x64x12800, .bf16⟩
  | .local _ .vmem, ⟨7, _⟩ => ⟨S64x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c7_i32 : BitVec 32 := 7#32
  let v3 : BitVec 1 := Scalar.cmpi .slt arg0 c7_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v17 : Index := Scalar.indexCast arg0
  let c0_8 : Index := 0#32
  let c0_9 : Index := 0#32
  ![v17.toNat, 0, 0]
def k0_cond4 (i : grid0.Coords) : BitVec 1 :=
  let arg0 : BitVec 32 := BitVec.ofNat 32 (i 0).val
  let c8_i32 : BitVec 32 := 8#32
  let v9 : BitVec 1 := Scalar.cmpi .sge arg0 c8_i32
  let v10 : BitVec 32 := Scalar.extui v9
  let c0_i32_4 : BitVec 32 := 0#32
  let v11 : BitVec 1 := Scalar.cmpi .ne v10 c0_i32_4
  v11

def k0_off2 (i : grid0.Coords) : Fin 3 → Nat :=
  let arg0 : BitVec 32 := BitVec.ofNat 32 (i 0).val
  let c8_i32_5 : BitVec 32 := 8#32
  let v12 : BitVec 32 := Scalar.subi arg0 c8_i32_5
  let v13 : Index := Scalar.indexCast v12
  let c0 : Index := 0#32
  let c0_6 : Index := 0#32
  ![v13.toNat, 0, 0]
def k0_cond3 (i : grid0.Coords) : BitVec 1 :=
  let arg0 : BitVec 32 := BitVec.ofNat 32 (i 0).val
  let c7_i32_2 : BitVec 32 := 7#32
  let v6 : BitVec 1 := Scalar.cmpi .eq arg0 c7_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c7_i32 : BitVec 32 := 7#32
  let v2 : BitVec 32 := Scalar.select v0 c7_i32 v1
  let c0_i32 : BitVec 32 := 0#32
  let c0_i32_1 : BitVec 32 := 0#32
  ![v2.toNat, c0_i32.toNat]

abbrev stage0_0 : Fin 2 → Memref sig .tc .vmem S64x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x64_S64x100000_1_0 : S100000x64.Transposes [1, 0] S64x100000
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x12800_S64x12800_0_0 : ∀ a, (![0, 0] : Fin 2 → Nat) a + S64x12800.size a ≤ S64x12800.size a
  h_S64x12800 : 0 < S64x12800.numel
  shapeCasts_S64x12800_S64x12800 : S64x12800.ShapeCasts S64x12800
  bitsLt_bf16_f32 : FTy.bits .bf16 < FTy.bits .f32
  inb_S12800x128_S12800x128_0_0 : ∀ a, (![0, 0] : Fin 2 → Nat) a + S12800x128.size a ≤ S12800x128.size a
  h_S12800x128 : 0 < S12800x128.numel
  h_S1x64x12800 : 0 < S1x64x12800.numel
  shapeCasts_S1x64x12800_S64x12800 : S1x64x12800.ShapeCasts S64x12800
  shapeCasts_S64x12800_S1x64x12800 : S64x12800.ShapeCasts S1x64x12800
  iota_S64x12800_d1_w32 : S64x12800.Iotas .tc 32 [1]
  iota_S12800x128_d0_w32 : S12800x128.Iotas .tc 32 [0]
  dot_S64x12800_S12800x128_S64x128_1_0_0_1_n_n_wf : DotDims.WF S64x12800 S12800x128 S64x128 [1] [0] [0] [1] [] []
  dot_S64x12800_S64x128_S12800x128_0_0_1_1_n_n_wf : DotDims.WF S64x12800 S64x128 S12800x128 [0] [0] [1] [1] [] []
  hrank0 : 0 < grid0.rank
  k0_off1_inb : ∀ i : grid0.Coords, ∀ (k0_h2 : k0_cond2 i = 1#1), ∀ a, (k0_off1 i) a + S1x64x12800.size a ≤ S7x64x12800.size a
  k0_off1_packedbf16 : ∀ i : grid0.Coords, ∀ (k0_h2 : k0_cond2 i = 1#1), (Rect.unit (s := S7x64x12800) (k0_off1 i) S1x64x12800.size (k0_off1_inb i k0_h2)).PackedRows (EltTy.packing .bf16)
  k0_off2_inb : ∀ i : grid0.Coords, ∀ (k0_h4 : k0_cond4 i = 1#1), ∀ a, (k0_off2 i) a + S1x64x12800.size a ≤ S7x64x12800.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x12800.size a < S64x100000.size a
  hwx0_0 : ∀ i : grid0.Coords, EltTy.bits .f32 = 32 ∨ (Rect.unit (s := S64x100000) (fun a => cc0_transform_0 i a * S64x12800.size a) (fun a => (Pipeline.Clip.of (cc0_transform_0 i a) (S64x12800.size a) (S64x100000.size a)).extent (S64x12800.size a)) fun a => Pipeline.Clip.inb (Pipeline.Clip.ok_of (hstart0_0 i a))).WholeWords (EltTy.packing .f32)
  hwxs0_0 : ∀ i : grid0.Coords, EltTy.bits .f32 = 32 ∨ (Rect.unit (s := S64x12800) (fun _ => 0) (fun a => (Pipeline.Clip.of (cc0_transform_0 i a) (S64x12800.size a) (S64x100000.size a)).extent (S64x12800.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12800x128.size a < S100000x128.size a
  hwx0_1 : ∀ i : grid0.Coords, EltTy.bits .f32 = 32 ∨ (Rect.unit (s := S100000x128) (fun a => cc0_transform_1 i a * S12800x128.size a) (fun a => (Pipeline.Clip.of (cc0_transform_1 i a) (S12800x128.size a) (S100000x128.size a)).extent (S12800x128.size a)) fun a => Pipeline.Clip.inb (Pipeline.Clip.ok_of (hstart0_1 i a))).WholeWords (EltTy.packing .f32)
  hwxs0_1 : ∀ i : grid0.Coords, EltTy.bits .f32 = 32 ∨ (Rect.unit (s := S12800x128) (fun _ => 0) (fun a => (Pipeline.Clip.of (cc0_transform_1 i a) (S12800x128.size a) (S100000x128.size a)).extent (S12800x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S12800x128.size a < S100000x128.size a
  hwx0_2 : ∀ i : grid0.Coords, EltTy.bits .f32 = 32 ∨ (Rect.unit (s := S100000x128) (fun a => cc0_transform_2 i a * S12800x128.size a) (fun a => (Pipeline.Clip.of (cc0_transform_2 i a) (S12800x128.size a) (S100000x128.size a)).extent (S12800x128.size a)) fun a => Pipeline.Clip.inb (Pipeline.Clip.ok_of (hstart0_2 i a))).WholeWords (EltTy.packing .f32)
  hwxs0_2 : ∀ i : grid0.Coords, EltTy.bits .f32 = 32 ∨ (Rect.unit (s := S12800x128) (fun _ => 0) (fun a => (Pipeline.Clip.of (cc0_transform_2 i a) (S12800x128.size a) (S100000x128.size a)).extent (S12800x128.size a)) fun a => (Nat.zero_add _).trans_le (Pipeline.Clip.extent_le (Pipeline.Clip.ok_of (hstart0_2 i a)))).WholeWords (EltTy.packing .f32)

variable [Facts₀]

def dot_S64x12800_S12800x128_S64x128_1_0_0_1_n_n : DotDims S64x12800 S12800x128 S64x128 where
  lhsContracting := [1]
  rhsContracting := [0]
  lhsNonContracting := [0]
  rhsNonContracting := [1]
  lhsBatch := []
  rhsBatch := []
  wf := dot_S64x12800_S12800x128_S64x128_1_0_0_1_n_n_wf
def dot_S64x12800_S64x128_S12800x128_0_0_1_1_n_n : DotDims S64x12800 S64x128 S12800x128 where
  lhsContracting := [0]
  rhsContracting := [0]
  lhsNonContracting := [1]
  rhsNonContracting := [1]
  lhsBatch := []
  rhsBatch := []
  wf := dot_S64x12800_S64x128_S12800x128_0_0_1_1_n_n_wf

abbrev win0_0 : Pipeline.Window sig grid0 :=
  Pipeline.Window.ofSpecClip (Memref.whole main_v0) S64x12800.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S12800x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S12800x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) && !(k0_cond4 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S100000x128 : Shape := ⟨2, ![100000, 128]⟩
abbrev S64x100000 : Shape := ⟨2, ![64, 100000]⟩
abbrev S64x128 : Shape := ⟨2, ![64, 128]⟩

abbrev nBuf : Space → Nat
  | .hbm => 5
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x128, .f32⟩
  | .hbm, ⟨2, _⟩ => ⟨S64x100000, .f32⟩
  | .hbm, ⟨3, _⟩ => ⟨S64x128, .f32⟩
  | .hbm, ⟨4, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S100000x64_S64x100000_1_0 : S100000x64.Transposes [1, 0] S64x100000
  dot_S64x100000_S100000x128_S64x128_1_0_0_1_n_n_wf : DotDims.WF S64x100000 S100000x128 S64x128 [1] [0] [0] [1] [] []
  dot_S100000x64_S64x128_S100000x128_1_0_0_1_n_n_wf : DotDims.WF S100000x64 S64x128 S100000x128 [1] [0] [0] [1] [] []

variable [Facts₀]

def dot_S64x100000_S100000x128_S64x128_1_0_0_1_n_n : DotDims S64x100000 S100000x128 S64x128 where
  lhsContracting := [1]
  rhsContracting := [0]
  lhsNonContracting := [0]
  rhsNonContracting := [1]
  lhsBatch := []
  rhsBatch := []
  wf := dot_S64x100000_S100000x128_S64x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KConds.lean ====
import proofs.«131046_g35527969473089_cont_8to1_b_1767_21_alg».proof.Proof.Gen.Kernel.Frame
import proofs.«131046_g35527969473089_cont_8to1_b_1767_21_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The four branch conditions of the body as propositions of the grid coordinate, and where each holds:
    the first at step 0 only, the second at steps 0..6, the third at step 7 only, the fourth from step 8 on. -/

abbrev cond1 (i : grid0.Coords) : Prop := (Scalar.cmpi .ne (Scalar.extui (Scalar.cmpi .eq (BitVec.ofNat 32 (i 0).val) 0#32)) 0#32) = 1#1
abbrev cond2 (i : grid0.Coords) : Prop := k0_cond2 i = 1#1
abbrev cond3 (i : grid0.Coords) : Prop := k0_cond3 i = 1#1
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 7 :=
  (by decide +kernel : ∀ t : Fin grid0.N, cond2 (grid0.coords t) ↔ t.val < 7)
theorem hcond3 : ∀ t : Fin cfg0.N, cond3 (grid0.coords t) ↔ t.val = 7 :=
  (by decide +kernel : ∀ t : Fin grid0.N, cond3 (grid0.coords t) ↔ t.val = 7)
theorem hcond4 : ∀ t : Fin cfg0.N, cond4 (grid0.coords t) ↔ 8 ≤ t.val :=
  (by decide +kernel : ∀ t : Fin grid0.N, cond4 (grid0.coords t) ↔ 8 ≤ t.val)

/-- The slab of the stash written at an accumulate step is the step's own. -/
theorem off1_eq : ∀ t : Fin cfg0.N, t.val < 7 → k0_off1 (grid0.coords t) = ![t.val, 0, 0] :=
  (by decide +kernel : ∀ t : Fin grid0.N, t.val < 7 → k0_off1 (grid0.coords t) = ![t.val, 0, 0])
/-- The slab of the stash read at an emit step g ≥ 8 is slab g - 8. -/
theorem off2_eq : ∀ t : Fin cfg0.N, 8 ≤ t.val → k0_off2 (grid0.coords t) = ![t.val - 8, 0, 0] :=
  (by decide +kernel : ∀ t : Fin grid0.N, 8 ≤ t.val → k0_off2 (grid0.coords t) = ![t.val - 8, 0, 0])

/-- The staging memrefs the pipeline passes at a step, and the two scratch operands. -/
abbrev ms0 (t : Fin cfg0.N) : Memref sig .tc .vmem S64x12800 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S12800x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S12800x128 .f32 := win0_2.stage (cfg0.slots t 2)
abbrev hs2 (t : Fin cfg0.N) : (ms2 t).IsWhole := hstage0_2 ((cfg0.slots t 2).cast nbuf0_2)
abbrev scStash : Memref sig .tc .vmem S7x64x12800 .bf16 := Memref.whole cc0_scratch0
abbrev scLat : Memref sig .tc .vmem S64x128 .f32 := Memref.whole cc0_scratch1

/-- The region's class invariant with the two scratch operands as memrefs owned at some contents. -/
theorem PhiA_eq (c : Dev nD) :
    (Pipeline.ΦA spec0 c : sProp 𝕄)
      = iprop(iprop((∃ d, owns (c : Thread nD τ) scStash fullShare d) ∗ (∃ d, owns (c : Thread nD τ) scLat fullShare d)) ∗ (∃ r, prngReg c r)) := by
  unfold Pipeline.ΦA; rw [scopedRest0_eq]; simp only [scStash, scLat, owns_whole]; try rfl

end Cert.Kernel.Hand

end
-- ==== Proof.KData.lean ====
import proofs.«131046_g35527969473089_cont_8to1_b_1767_21_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! The proof data of the one pipeline: what each staging buffer and each scratch holds after every step. -/

/-- The grid point whose input blocks the buffers hold at step `n`: the step itself up to step 7, step 7 afterwards
    (the inputs' block index stays at the last block). -/
def pt (n : ℕ) : Fin cfg0.N := ⟨min n 7, by have := N_0; show min n 7 < grid0.N; omega⟩

theorem pt_val (t : Fin cfg0.N) (h : t.val < 8) : pt t.val = t :=
  Fin.ext (by show min t.val 7 = t.val; omega)

theorem pt_hold (n : ℕ) (h : 7 ≤ n) : pt n = pt 7 :=
  Fin.ext (by show min n 7 = min 7 7; omega)

/-- The block of the transposed adjacency the input buffer holds at step `n` (columns 12800·min(n,7) on), and
    the block of the embeddings (rows 12800·min(n,7) on), each filled out past the array's end with zeros. -/
def blkA (c : Dev nD) (n : ℕ) : S64x12800.Idx → Elt F .f32 :=
  win0_0.fill (grid0.coords (pt n)) (fun _ => Scalar.ofBits .f32 0#32) (iblk m c 0 (pt n))
def blkE (c : Dev nD) (n : ℕ) : S12800x128.Idx → Elt F .f32 :=
  win0_1.fill (grid0.coords (pt n)) (fun _ => Scalar.ofBits .f32 0#32) (iblk m c 1 (pt n))

/-- The accumulator after step `n`: zero plus the products of the rounded blocks 0..n for n ≤ 6, the masked
    last block added at step 7, unchanged afterwards. -/
def latAfter (c : Dev nD) : ℕ → Vec F S64x128 .f32
  | 0 => k0_pay4 (blkA m c 0) (blkE m c 0) (k0_pay1 (F := F))
  | n + 1 =>
    if n + 1 < 7 then k0_pay4 (blkA m c (n + 1)) (blkE m c (n + 1)) (latAfter c n)
    else if n + 1 = 7 then k0_pay7 (blkA m c 7) (blkE m c 7) (latAfter c n)
    else latAfter c n

theorem blkA_hold (c : Dev nD) (n : ℕ) (h : 7 ≤ n) : blkA m c n = blkA m c 7 := by
  unfold blkA; rw [pt_hold n h]
theorem blkE_hold (c : Dev nD) (n : ℕ) (h : 7 ≤ n) : blkE m c n = blkE m c 7 := by
  unfold blkE; rw [pt_hold n h]
theorem blkA_eq (c : Dev nD) (t : Fin cfg0.N) (h : t.val < 8) :
    blkA m c t.val = win0_0.fill (grid0.coords t) (fun _ => Scalar.ofBits .f32 0#32) (iblk m c 0 t) := by
  unfold blkA; rw [pt_val t h]
theorem blkE_eq (c : Dev nD) (t : Fin cfg0.N) (h : t.val < 8) :
    blkE m c t.val = win0_1.fill (grid0.coords t) (fun _ => Scalar.ofBits .f32 0#32) (iblk m c 1 t) := by
  unfold blkE; rw [pt_val t h]

theorem latAfter_acc (c : Dev nD) (n : ℕ) (h : n + 1 < 7) :
    latAfter m c (n + 1) = k0_pay4 (blkA m c (n + 1)) (blkE m c (n + 1)) (latAfter m c n) := by
  rw [latAfter, if_pos h]
theorem latAfter_tail (c : Dev nD) : latAfter m c 7 = k0_pay7 (blkA m c 7) (blkE m c 7) (latAfter m c 6) := by
  rw [latAfter, if_neg (by omega), if_pos rfl]
theorem latAfter_emit (c : Dev nD) (n : ℕ) (h : 7 ≤ n) : latAfter m c (n + 1) = latAfter m c n := by
  rw [latAfter, if_neg (by omega), if_neg (by omega)]

theorem latAfter_const (c : Dev nD) (n : ℕ) (h : 7 ≤ n) : latAfter m c n = latAfter m c 7 := by
  induction n, h using Nat.le_induction with
  | base => rfl
  | succ n hn ih => rw [latAfter_emit m c n hn, ih]

/-- Slab `k` of the stash: the 1×64×12800 box at leading offset `k`. -/
abbrev slab (k : ℕ) (hk : k < 7) : Rect S7x64x12800 :=
  Rect.unit ![k, 0, 0] S1x64x12800.size (fun a => by
    match a with
    | ⟨0, _⟩ => show k + 1 ≤ 7; omega
    | ⟨1, _⟩ => show 0 + 64 ≤ 64; omega
    | ⟨2, _⟩ => show 0 + 12800 ≤ 12800; omega)

theorem unit_congr {s : Shape} {off off' : Fin s.rank → Nat} {sz : Fin s.rank → Nat} (h : off = off')
    (inb : ∀ a, off a + sz a ≤ s.size a) (inb' : ∀ a, off' a + sz a ≤ s.size a) :
    Rect.unit (s := s) off sz inb = Rect.unit off' sz inb' := by subst h; rfl

/-- The stash after step `n`: slabs 0..min(n,6) hold the rounded adjacency blocks of those steps; nothing is
    said of the others. -/
def StashOk (c : Dev nD) (n : ℕ) (xs4 : Vec F S7x64x12800 .bf16) : Prop :=
  ∀ k (hk : k < 7), k ≤ n → View.ld xs4 (slab k hk) = k0_pay3 (blkA m c k)

theorem slab_disjoint (k k' : ℕ) (hk : k < 7) (hk' : k' < 7) (hne : k ≠ k') (x : (slab k hk).shape.Idx) :
    (slab k hk).emb x ∉ (slab k' hk').set := by
  intro hmem
  have h0 := (Rect.mem_set_unit.mp hmem) (0 : Fin 3)
  have e : (((slab k hk).emb x) (0 : Fin 3)).val = k + 1 * (x (0 : Fin 3)).val := by
    rw [Rect.emb_apply]; rfl
  have hx : (x (0 : Fin 3)).val < 1 := (x (0 : Fin 3)).isLt
  have h0' : k' ≤ (((slab k hk).emb x) (0 : Fin 3)).val ∧ (((slab k hk).emb x) (0 : Fin 3)).val < k' + 1 := h0
  omega

theorem stashOk_zero (c : Dev nD) (xs4 : Vec F S7x64x12800 .bf16) :
    StashOk m c 0 ((slab 0 (by omega)).overlay xs4 (k0_pay3 (blkA m c 0))) := by
  intro k hk hle
  obtain rfl : k = 0 := by omega
  funext x
  exact Rect.overlay_emb _ _ _ x

theorem stashOk_step (c : Dev nD) (n : ℕ) (hn : n + 1 < 7) (xs4 : Vec F S7x64x12800 .bf16) (h : StashOk m c n xs4) :
    StashOk m c (n + 1) ((slab (n + 1) hn).overlay xs4 (k0_pay3 (blkA m c (n + 1)))) := by
  intro k hk hle
  funext x
  by_cases e : k = n + 1
  · subst e; exact Rect.overlay_emb _ _ _ x
  · show (slab (n + 1) hn).overlay xs4 _ ((slab k hk).emb x) = _
    exact (Rect.overlay_of_not_mem _ _ _ (slab_disjoint k (n + 1) hk hn e x)).trans (congrFun (h k hk (by omega)) x)

theorem stashOk_mono (c : Dev nD) (n n' : ℕ) (hn : 6 ≤ n) (xs4 : Vec F S7x64x12800 .bf16) (h : StashOk m c n xs4) :
    StashOk m c n' xs4 := fun k hk _ => h k hk (by omega)

/-- The result block after step `n`: at step 7 the masked last adjacency block times the complete accumulator,
    at step n ≥ 8 the stashed block n - 8 times it. -/
def outAfter (c : Dev nD) (n : ℕ) : Vec F S12800x128 .f32 :=
  if n = 7 then k0_pay8 (blkA m c 7) (blkE m c 7) (latAfter m c 6)
  else k0_pay9 (k0_pay3 (blkA m c (n - 8))) (latAfter m c 7)

/-- The invariant before step `n`: the region's own before the first step; afterwards the stash as `StashOk`
    says, the accumulator at `latAfter`, and the generator register at some state. -/
def PhiS (c : Dev nD) : ℕ → sProp 𝕄
  | 0 => Pipeline.ΦA spec0 c
  | n + 1 => iprop((∃ xs4, ⌜StashOk m c n xs4⌝ ∗ owns (c : Thread nD τ) scStash fullShare xs4)
      ∗ owns (c : Thread nD τ) scLat fullShare (latAfter m c n) ∗ (∃ r, prngReg c r))

/-- The proof data: the arrays as the region finds them; after step `t` the two input buffers at their blocks,
    the result buffer at `outAfter`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blkA m c t.val
    | ⟨1, _⟩ => blkE m c t.val
    | ⟨2, _⟩ => outAfter m c t.val
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = blkA m c t.val := by dsimp only [dats]
theorem after_1 (c : Dev nD) (t : Fin cfg0.N) : (dats m 0 c).after 1 t = blkE m c t.val := by dsimp only [dats]
theorem after_2 (c : Dev nD) (t : Fin cfg0.N) : (dats m 0 c).after 2 t = outAfter m c t.val := by dsimp only [dats]

end Cert.Kernel.Hand

end
-- ==== Proof.KSched.lean ====
import proofs.«131046_g35527969473089_cont_8to1_b_1767_21_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The schedule of the pipeline over the 15 steps, decided over the grid: the two inputs are fetched at steps
    0..7 and never again (their block index stays at 7), never written back; only their last block (index 7) is
    cut at the arrays' end; the result's buffer is idle at steps 0..6 and not written back there. -/

theorem fetch_0 : ∀ t : Fin cfg0.N, t.val < 8 → (cfg0.win 0).fetch t = true :=
  (by decide +kernel : ∀ t : Fin grid0.N, t.val < 8 → (cfg0.win 0).fetch t = true)
theorem fetch_1 : ∀ t : Fin cfg0.N, t.val < 8 → (cfg0.win 1).fetch t = true :=
  (by decide +kernel : ∀ t : Fin grid0.N, t.val < 8 → (cfg0.win 1).fetch t = true)
theorem nofetch_0 : ∀ t : Fin cfg0.N, 8 ≤ t.val → (cfg0.win 0).fetch t = false :=
  (by decide +kernel : ∀ t : Fin grid0.N, 8 ≤ t.val → (cfg0.win 0).fetch t = false)
theorem nofetch_1 : ∀ t : Fin cfg0.N, 8 ≤ t.val → (cfg0.win 1).fetch t = false :=
  (by decide +kernel : ∀ t : Fin grid0.N, 8 ≤ t.val → (cfg0.win 1).fetch t = false)
theorem noflush_0 : ∀ t : Fin cfg0.N, (cfg0.win 0).flush t = false :=
  (by decide +kernel : ∀ t : Fin grid0.N, (cfg0.win 0).flush t = false)
theorem noflush_1 : ∀ t : Fin cfg0.N, (cfg0.win 1).flush t = false :=
  (by decide +kernel : ∀ t : Fin grid0.N, (cfg0.win 1).flush t = false)
theorem idle_2 : ∀ t : Fin cfg0.N, t.val < 7 → cfg0.idle 2 (grid0.coords t) = true :=
  (by decide +kernel : ∀ t : Fin grid0.N, t.val < 7 → cfg0.idle 2 (grid0.coords t) = true)
theorem live_2 : ∀ t : Fin cfg0.N, 7 ≤ t.val → cfg0.idle 2 (grid0.coords t) = false :=
  (by decide +kernel : ∀ t : Fin grid0.N, 7 ≤ t.val → cfg0.idle 2 (grid0.coords t) = false)
theorem noflush_2 : ∀ t : Fin cfg0.N, t.val < 7 → (cfg0.win 2).flush t = false :=
  (by decide +kernel : ∀ t : Fin grid0.N, t.val < 7 → (cfg0.win 2).flush t = false)
theorem flush_2 : ∀ t : Fin cfg0.N, 7 ≤ t.val → (cfg0.win 2).flush t = true :=
  (by decide +kernel : ∀ t : Fin grid0.N, 7 ≤ t.val → (cfg0.win 2).flush t = true)
theorem noclip_0 : ∀ t : Fin cfg0.N, t.val < 7 → ∀ a, (cfg0.win 0).clip (grid0.coords t) a = none :=
  (by decide +kernel : ∀ t : Fin grid0.N, t.val < 7 → ∀ a, (cfg0.win 0).clip (grid0.coords t) a = none)
theorem noclip_1 : ∀ t : Fin cfg0.N, t.val < 7 → ∀ a, (cfg0.win 1).clip (grid0.coords t) a = none :=
  (by decide +kernel : ∀ t : Fin grid0.N, t.val < 7 → ∀ a, (cfg0.win 1).clip (grid0.coords t) a = none)
/-- From step 7 on the inputs' moved part is the last block's: 64 × 10400 of the adjacency, 10400 × 128 of the
    embeddings. -/
theorem xsize_0 : ∀ t : Fin cfg0.N, 7 ≤ t.val → (cfg0.win 0).xsize (grid0.coords t) = ![64, 10400] :=
  (by decide +kernel : ∀ t : Fin grid0.N, 7 ≤ t.val → (cfg0.win 0).xsize (grid0.coords t) = ![64, 10400])
theorem xsize_1 : ∀ t : Fin cfg0.N, 7 ≤ t.val → (cfg0.win 1).xsize (grid0.coords t) = ![10400, 128] :=
  (by decide +kernel : ∀ t : Fin grid0.N, 7 ≤ t.val → (cfg0.win 1).xsize (grid0.coords t) = ![10400, 128])

end Cert.Kernel.Hand

end
-- ==== Proof.KMask.lean ====
import proofs.«131046_g35527969473089_cont_8to1_b_1767_21_alg».proof.Proof.KSched
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! At the ragged last block the body masks both rounded operands to the part inside the arrays, so what the
    staging buffers hold past the arrays' end never reaches a result. -/

/-- A lane number below 12800 compares below 10400 as a signed 32-bit word exactly when it is. -/
theorem slt_iff (n : Nat) (hn : n < 12800) : (IntOp.cmpi .slt (BitVec.ofNat 32 n) 10400#32 = 1#1) ↔ n < 10400 := by
  unfold IntOp.cmpi
  have e : (BitVec.ofNat 32 n).slt 10400#32 = decide (n < 10400) := by
    rw [BitVec.slt]
    have h1 : (BitVec.ofNat 32 n).toInt = n := by
      unfold BitVec.toInt; rw [BitVec.toNat_ofNat, Nat.mod_eq_of_lt (by omega)]; rw [if_pos (by omega)]
    have h2 : (10400#32 : BitVec 32).toInt = 10400 := by decide
    rw [h1, h2]
    simp only [decide_eq_decide]; omega
  simp only [e]
  by_cases h : n < 10400 <;> simp [h]

/-- The masked rounded adjacency block does not depend on what fills the buffer past column 10400. -/
theorem pay5_fill (t : Fin cfg0.N) (h7 : 7 ≤ t.val) (d d' : S64x12800.Idx → Elt F .f32)
    (g : (win0_0.xblock (grid0.coords t)).Idx → Elt F .f32) :
    k0_pay5 (F := F) (win0_0.fill (grid0.coords t) d g) = k0_pay5 (win0_0.fill (grid0.coords t) d' g) := by
  funext j
  unfold k0_pay5
  dsimp only
  simp only [select, Scalar.select, truncf, cmpi, iota, broadcast, List.foldl_cons, List.foldl_nil, Nat.zero_mul, Nat.zero_add]
  rw [shapeCast_self, shapeCast_self]
  have hj1 : (j 1).val < 12800 := (j 1).isLt
  have hj0 : (j 0).val < 64 := (j 0).isLt
  by_cases hlt : (j 1).val < 10400
  · have hm : win0_0.moved (grid0.coords t) j = true := (win0_0.moved_iff _ j).mpr fun a => by
      have hx : win0_0.xsize (grid0.coords t) a = (![64, 10400] : Fin 2 → Nat) a := congrFun (xsize_0 t h7) a
      rw [hx]
      match a with
      | ⟨0, _⟩ => exact hj0
      | ⟨1, _⟩ => exact hlt
    unfold Window.fill; rw [dif_pos hm, dif_pos hm]
  · have hne : ¬ (IntOp.cmpi .slt (BitVec.ofNat 32 (j 1).val) 10400#32 = 1) := fun h => hlt ((slt_iff _ hj1).mp h)
    rw [if_neg hne, if_neg hne]

/-- The masked rounded embeddings block does not depend on what fills the buffer past row 10400. -/
theorem maskE_fill (t : Fin cfg0.N) (h7 : 7 ≤ t.val) (d d' : S12800x128.Idx → Elt F .f32)
    (g : (win0_1.xblock (grid0.coords t)).Idx → Elt F .f32) :
    select (cmpi .slt (iota .tc S12800x128 32 [0] iota_S12800x128_d0_w32) (broadcast S12800x128 (10400#32 : BitVec 32)))
        (truncf .bf16 (win0_1.fill (grid0.coords t) d g) bitsLt_bf16_f32) (broadcast S12800x128 (Scalar.ofBits (F := F) .bf16 0x0000#16))
      = select (cmpi .slt (iota .tc S12800x128 32 [0] iota_S12800x128_d0_w32) (broadcast S12800x128 (10400#32 : BitVec 32)))
        (truncf .bf16 (win0_1.fill (grid0.coords t) d' g) bitsLt_bf16_f32) (broadcast S12800x128 (Scalar.ofBits (F := F) .bf16 0x0000#16)) := by
  funext j
  simp only [select, Scalar.select, truncf, cmpi, iota, broadcast, List.foldl_cons, List.foldl_nil, Nat.zero_mul, Nat.zero_add]
  have hj0 : (j 0).val < 12800 := (j 0).isLt
  have hj1 : (j 1).val < 128 := (j 1).isLt
  by_cases hlt : (j 0).val < 10400
  · have hm : win0_1.moved (grid0.coords t) j = true := (win0_1.moved_iff _ j).mpr fun a => by
      have hx : win0_1.xsize (grid0.coords t) a = (![10400, 128] : Fin 2 → Nat) a := congrFun (xsize_1 t h7) a
      rw [hx]
      match a with
      | ⟨0, _⟩ => exact hlt
      | ⟨1, _⟩ => exact hj1
    unfold Window.fill; rw [dif_pos hm, dif_pos hm]
  · have hne : ¬ (IntOp.cmpi .slt (BitVec.ofNat 32 (j 0).val) 10400#32 = 1) := fun h => hlt ((slt_iff _ hj0).mp h)
    rw [if_neg hne, if_neg hne]

/-- So neither does the accumulator's last update, -/
theorem pay6_fill (t : Fin cfg0.N) (h7 : 7 ≤ t.val) (d0 d0' : S64x12800.Idx → Elt F .f32)
    (g0 : (win0_0.xblock (grid0.coords t)).Idx → Elt F .f32) (d1 d1' : S12800x128.Idx → Elt F .f32)
    (g1 : (win0_1.xblock (grid0.coords t)).Idx → Elt F .f32) (v : Vec F S64x128 .f32) :
    k0_pay6 (F := F) (win0_0.fill (grid0.coords t) d0 g0) (win0_1.fill (grid0.coords t) d1 g1) v
      = k0_pay6 (win0_0.fill (grid0.coords t) d0' g0) (win0_1.fill (grid0.coords t) d1' g1) v := by
  unfold k0_pay6
  dsimp only
  rw [pay5_fill t h7 d0 d0' g0, maskE_fill t h7 d1 d1' g1]

theorem pay7_fill (t : Fin cfg0.N) (h7 : 7 ≤ t.val) (d0 d0' : S64x12800.Idx → Elt F .f32)
    (g0 : (win0_0.xblock (grid0.coords t)).Idx → Elt F .f32) (d1 d1' : S12800x128.Idx → Elt F .f32)
    (g1 : (win0_1.xblock (grid0.coords t)).Idx → Elt F .f32) (v : Vec F S64x128 .f32) :
    k0_pay7 (F := F) (win0_0.fill (grid0.coords t) d0 g0) (win0_1.fill (grid0.coords t) d1 g1) v
      = k0_pay7 (win0_0.fill (grid0.coords t) d0' g0) (win0_1.fill (grid0.coords t) d1' g1) v := by
  unfold k0_pay7
  dsimp only
  rw [pay6_fill t h7 d0 d0' g0 d1 d1' g1]

/-- nor the last block's own result. -/
theorem pay8_fill (t : Fin cfg0.N) (h7 : 7 ≤ t.val) (d0 d0' : S64x12800.Idx → Elt F .f32)
    (g0 : (win0_0.xblock (grid0.coords t)).Idx → Elt F .f32) (d1 d1' : S12800x128.Idx → Elt F .f32)
    (g1 : (win0_1.xblock (grid0.coords t)).Idx → Elt F .f32) (v : Vec F S64x128 .f32) :
    k0_pay8 (F := F) (win0_0.fill (grid0.coords t) d0 g0) (win0_1.fill (grid0.coords t) d1 g1) v
      = k0_pay8 (win0_0.fill (grid0.coords t) d0' g0) (win0_1.fill (grid0.coords t) d1' g1) v := by
  unfold k0_pay8
  dsimp only
  rw [pay6_fill t h7 d0 d0' g0 d1 d1' g1, pay5_fill t h7 d0 d0' g0]

end Cert.Kernel.Hand

end
-- ==== Proof.LibStore.lean ====
/-
  Two facts about what unmasked stores through a memref leave, in the vocabulary of owned contents:
  a store through the whole shape leaves its payload, whatever was there; one store through a
  rectangle over contents reading `X` leaves `X` with the rectangle's part replaced by the payload.
-/
import Idealize.ShloMosaic.Lib.Memref
import Idealize.ShloMosaic.Lib.Pipeline.FrameBody
import Idealize.ShloMosaic.Lib.Pipeline.Value

noncomputable section

namespace Cert.LibStore

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- After a store through the whole shape (offsets zero, the shape's own sizes), made last, the memref reads the
    payload: the earlier stores and the prior contents do not matter. -/
theorem owns_of_whole_store [∀ e, Nonempty (Val e)] (c : Thread nD τ) {sp : Space} {S : Shape} {e : EltTy}
    (m : Memref sig c.2.kind sp S e) (q : PosShare TreeShare) {off : Fin S.rank → Nat} (hz : off = fun _ => 0)
    (inb : ∀ a, off a + S.size a ≤ S.size a) (w : S.Idx → Val e) (f : m.view.ty.Contents Val)
    (L : List (View.Piece Val S e)) :
    (m.view.loc c ↦[m.view.set]{q} m.view.writes Val f ((⟨Rect.unit off S.size inb, w⟩ : View.Piece Val S e) :: L) : sProp 𝕄)
      ⊢ owns c m q w := by
  unfold owns
  iintro H
  iexists _
  isplitr
  · ipureintro
    have hcov : ∀ y : S.Idx, ∃ p ∈ ((⟨Rect.unit off S.size inb, w⟩ : View.Piece Val S e) :: L), y ∈ p.1.set :=
      fun y => ⟨⟨Rect.unit off S.size inb, w⟩, List.mem_cons_self, View.mem_set_unit_zero hz inb y⟩
    exact (View.read_writes_eq_canon m.view f _ hcov).trans (View.canon_cons_unit_zero hz inb w L)
  · iexact H

/-- What a memref reads after one store through rectangle `r` over contents reading `X`: `X` with `r`'s part
    replaced by the payload. -/
theorem read_writes_single {κ : Kind} {sp : Space} {S : Shape} {e : EltTy} (v : View sig κ sp S e) (f : v.ty.Contents Val)
    (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton.mp hp]; exact hy)

/-- The same as ownership: after one store through `r` over contents reading `X`, the memref is owned at the
    overlay. -/
theorem owns_of_single_store (c : Thread nD τ) {sp : Space} {S : Shape} {e : EltTy}
    (m : Memref sig c.2.kind sp S e) (q : PosShare TreeShare) (r : Rect S) (w : r.shape.Idx → Val e)
    (f : m.view.ty.Contents Val) (X : S.Idx → Val e) (hX : m.view.read Val f = X) :
    (m.view.loc c ↦[m.view.set]{q} m.view.writes Val f [⟨r, w⟩] : sProp 𝕄) ⊢ owns c m q (r.overlay X w) := by
  unfold owns
  iintro H
  iexists _
  isplitr
  · ipureintro; rw [read_writes_single, hX]
  · iexact H

end Cert.LibStore

end
-- ==== Proof.KRunEmit.lean ====
import proofs.«131046_g35527969473089_cont_8to1_b_1767_21_alg».proof.Proof.KConds
import proofs.«131046_g35527969473089_cont_8to1_b_1767_21_alg».proof.Proof.LibStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at an emit step (from step 8 on): it reads one slab of the stash and the accumulator and stores the result block whole; the stash and the accumulator are unchanged. -/
theorem run_emit (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : ¬cond1 i) (hc2 : ¬cond2 i) (hc3 : ¬cond3 i) (hc4 : cond4 i)
    (xs4 : Vec F S7x64x12800 .bf16) (xs5 : Vec F S64x128 .f32) (E : Set ℕ) (K : PUnit → sProp 𝕄) :
    iprop((∃ d, owns (c : Thread nD τ) arg3 fullShare d) ∗ owns (c : Thread nD τ) arg4 fullShare xs4 ∗ owns (c : Thread nD τ) arg5 fullShare xs5
        ∗ (iprop(owns (c : Thread nD τ) arg3 fullShare (k0_pay9 (View.ld xs4 (Rect.unit (s := S7x64x12800) (k0_off2 i) S1x64x12800.size (k0_off2_inb i hc4))) xs5) ∗ owns (c : Thread nD τ) arg4 fullShare xs4 ∗ owns (c : Thread nD τ) arg5 fullShare xs5) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%d3, %f3, -, H3⟩, ⟨%f4, %hf4, H4⟩, ⟨%f5, %hf5, H5⟩, Hk⟩
  obtain rfl := harg4.eq_unread hf4; obtain rfl := harg5.eq_unread hf5
  sl_exec (disch := first | exact hc1 | exact hc2 | exact hc3 | exact hc4)
  sl_step
  iapply Hk
  simp only [View.readAt_eq_ld, harg1.read_unread, harg2.read_unread, harg4.read_unread, harg5.read_unread, View.ld_unit_zero (S := S64x128) hz, View.ld_unit_zero (S := S64x12800) hz, View.ld_unit_zero (S := S12800x128) hz]
  isplitl [H3]
  · have h := fun w f => owns_of_whole_store (Val := Elt F) (Ix := Unit) (Name := ℕ) (U := UR sig nD τ) (Lvl := ℕ) (c : Thread nD τ) arg3 fullShare hz inb_S12800x128_S12800x128_0_0 w f []
    unfold owns at h
    iapply h; iexact H3
  isplitl [H4]
  · iexists _; isplitr; · ipureintro; exact harg4.read_unread _
    iexact H4
  · iexists _; isplitr; · ipureintro; exact harg5.read_unread _
    iexact H5

end Cert.Kernel.Hand

end
-- ==== Proof.KRunAcc.lean ====
import proofs.«131046_g35527969473089_cont_8to1_b_1767_21_alg».proof.Proof.KConds
import proofs.«131046_g35527969473089_cont_8to1_b_1767_21_alg».proof.Proof.LibStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at an accumulate step after the first (steps 1 to 6): the rounded block of the transposed adjacency is stored into the step's slab of the stash, and the accumulator gains the product of the two rounded blocks. -/
theorem run_acc (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : ¬cond1 i) (hc2 : cond2 i) (hc3 : ¬cond3 i) (hc4 : ¬cond4 i)
    (X0 : Vec F S64x12800 .f32) (X1 : Vec F S12800x128 .f32) (xs4 : Vec F S7x64x12800 .bf16) (xs5 : Vec F S64x128 .f32) (E : Set ℕ) (K : PUnit → sProp 𝕄) :
    iprop(owns (c : Thread nD τ) arg1 fullShare X0 ∗ owns (c : Thread nD τ) arg2 fullShare X1 ∗ owns (c : Thread nD τ) arg4 fullShare xs4 ∗ owns (c : Thread nD τ) arg5 fullShare xs5
        ∗ (iprop(owns (c : Thread nD τ) arg1 fullShare X0 ∗ owns (c : Thread nD τ) arg2 fullShare X1 ∗ owns (c : Thread nD τ) arg4 fullShare ((Rect.unit (s := S7x64x12800) (k0_off1 i) S1x64x12800.size (k0_off1_inb i hc2)).overlay xs4 (k0_pay3 X0)) ∗ owns (c : Thread nD τ) arg5 fullShare (k0_pay4 X0 X1 xs5)) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%f0, %hf0, H0⟩, ⟨%f1, %hf1, H1⟩, ⟨%f4, %hf4, H4⟩, ⟨%f5, %hf5, H5⟩, Hk⟩
  obtain rfl := harg1.eq_unread hf0; obtain rfl := harg2.eq_unread hf1; obtain rfl := harg4.eq_unread hf4; obtain rfl := harg5.eq_unread hf5
  sl_exec (disch := first | exact hc1 | exact hc2 | exact hc3 | exact hc4)
  sl_step
  iapply Hk
  simp only [View.readAt_eq_ld, harg1.read_unread, harg2.read_unread, harg4.read_unread, harg5.read_unread, View.ld_unit_zero (S := S64x128) hz, View.ld_unit_zero (S := S64x12800) hz, View.ld_unit_zero (S := S12800x128) hz]
  isplitl [H0]
  · iexists _; isplitr; · ipureintro; exact harg1.read_unread _
    iexact H0
  isplitl [H1]
  · iexists _; isplitr; · ipureintro; exact harg2.read_unread _
    iexact H1
  isplitl [H4]
  · have h := owns_of_single_store (Val := Elt F) (Ix := Unit) (Name := ℕ) (U := UR sig nD τ) (Lvl := ℕ) (c : Thread nD τ) arg4 fullShare (Rect.unit (s := S7x64x12800) (k0_off1 i) S1x64x12800.size (k0_off1_inb i hc2)) (k0_pay3 X0) (harg4.unread xs4) xs4 (harg4.read_unread xs4)
    unfold owns at h
    iapply h; iexact H4
  · have h := fun w f => owns_of_whole_store (Val := Elt F) (Ix := Unit) (Name := ℕ) (U := UR sig nD τ) (Lvl := ℕ) (c : Thread nD τ) arg5 fullShare hz inb_S64x128_S64x128_0_0 w f []
    unfold owns at h
    iapply h; iexact H5

end Cert.Kernel.Hand

end
-- ==== Proof.KRunFirst.lean ====
import proofs.«131046_g35527969473089_cont_8to1_b_1767_21_alg».proof.Proof.KConds
import proofs.«131046_g35527969473089_cont_8to1_b_1767_21_alg».proof.Proof.LibStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at step 0: the accumulator is zeroed, then the step accumulates as the later ones do, from the zeroed accumulator. -/
theorem run_first (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : cond1 i) (hc2 : cond2 i) (hc3 : ¬cond3 i) (hc4 : ¬cond4 i)
    (X0 : Vec F S64x12800 .f32) (X1 : Vec F S12800x128 .f32) (xs4 : Vec F S7x64x12800 .bf16) (E : Set ℕ) (K : PUnit → sProp 𝕄) :
    iprop(owns (c : Thread nD τ) arg1 fullShare X0 ∗ owns (c : Thread nD τ) arg2 fullShare X1 ∗ owns (c : Thread nD τ) arg4 fullShare xs4 ∗ (∃ d, owns (c : Thread nD τ) arg5 fullShare d)
        ∗ (iprop(owns (c : Thread nD τ) arg1 fullShare X0 ∗ owns (c : Thread nD τ) arg2 fullShare X1 ∗ owns (c : Thread nD τ) arg4 fullShare ((Rect.unit (s := S7x64x12800) (k0_off1 i) S1x64x12800.size (k0_off1_inb i hc2)).overlay xs4 (k0_pay3 X0)) ∗ owns (c : Thread nD τ) arg5 fullShare (k0_pay4 X0 X1 (k0_pay1 (F := F)))) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%f0, %hf0, H0⟩, ⟨%f1, %hf1, H1⟩, ⟨%f4, %hf4, H4⟩, ⟨%d5, %f5, -, H5⟩, Hk⟩
  obtain rfl := harg1.eq_unread hf0; obtain rfl := harg2.eq_unread hf1; obtain rfl := harg4.eq_unread hf4
  sl_exec (disch := first | exact hc1 | exact hc2 | exact hc3 | exact hc4)
  sl_step
  iapply Hk
  have hv : run_first.sl.v21 (F := F) c arg5 = k0_pay1 (F := F) := by
    unfold run_first.sl.v21 run_first.sl.H5_1
    exact View.readCov_unit_zero arg5.view hz _ _
  rw [hv]
  simp only [View.readAt_eq_ld, harg1.read_unread, harg2.read_unread, harg4.read_unread, harg5.read_unread, View.ld_unit_zero (S := S64x128) hz, View.ld_unit_zero (S := S64x12800) hz, View.ld_unit_zero (S := S12800x128) hz]
  isplitl [H0]
  · iexists _; isplitr; · ipureintro; exact harg1.read_unread _
    iexact H0
  isplitl [H1]
  · iexists _; isplitr; · ipureintro; exact harg2.read_unread _
    iexact H1
  isplitl [H4]
  · have h := owns_of_single_store (Val := Elt F) (Ix := Unit) (Name := ℕ) (U := UR sig nD τ) (Lvl := ℕ) (c : Thread nD τ) arg4 fullShare (Rect.unit (s := S7x64x12800) (k0_off1 i) S1x64x12800.size (k0_off1_inb i hc2)) (k0_pay3 X0) (harg4.unread xs4) xs4 (harg4.read_unread xs4)
    unfold owns at h
    iapply h; iexact H4
  · have h := fun w f L => owns_of_whole_store (Val := Elt F) (Ix := Unit) (Name := ℕ) (U := UR sig nD τ) (Lvl := ℕ) (c : Thread nD τ) arg5 fullShare hz inb_S64x128_S64x128_0_0 w f L
    unfold owns at h
    iapply h; iexact H5

end Cert.Kernel.Hand

end
-- ==== Proof.KRunTail.lean ====
import proofs.«131046_g35527969473089_cont_8to1_b_1767_21_alg».proof.Proof.KConds
import proofs.«131046_g35527969473089_cont_8to1_b_1767_21_alg».proof.Proof.LibStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at step 7, the ragged last block: both rounded blocks are masked to the rows inside the arrays, the accumulator gains their product and is complete, and the step's own result block is stored whole. -/
theorem run_tail (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : ¬cond1 i) (hc2 : ¬cond2 i) (hc3 : cond3 i) (hc4 : ¬cond4 i)
    (X0 : Vec F S64x12800 .f32) (X1 : Vec F S12800x128 .f32) (xs5 : Vec F S64x128 .f32) (E : Set ℕ) (K : PUnit → sProp 𝕄) :
    iprop(owns (c : Thread nD τ) arg1 fullShare X0 ∗ owns (c : Thread nD τ) arg2 fullShare X1 ∗ (∃ d, owns (c : Thread nD τ) arg3 fullShare d) ∗ owns (c : Thread nD τ) arg5 fullShare xs5
        ∗ (iprop(owns (c : Thread nD τ) arg1 fullShare X0 ∗ owns (c : Thread nD τ) arg2 fullShare X1 ∗ owns (c : Thread nD τ) arg3 fullShare (k0_pay8 X0 X1 xs5) ∗ owns (c : Thread nD τ) arg5 fullShare (k0_pay7 X0 X1 xs5)) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%f0, %hf0, H0⟩, ⟨%f1, %hf1, H1⟩, ⟨%d3, %f3, -, H3⟩, ⟨%f5, %hf5, H5⟩, Hk⟩
  obtain rfl := harg1.eq_unread hf0; obtain rfl := harg2.eq_unread hf1; obtain rfl := harg5.eq_unread hf5
  sl_exec (disch := first | exact hc1 | exact hc2 | exact hc3 | exact hc4)
  sl_step
  iapply Hk
  simp only [View.readAt_eq_ld, harg1.read_unread, harg2.read_unread, harg5.read_unread, View.ld_unit_zero (S := S64x128) hz, View.ld_unit_zero (S := S64x12800) hz, View.ld_unit_zero (S := S12800x128) hz]
  isplitl [H0]
  · iexists _; isplitr; · ipureintro; exact harg1.read_unread _
    iexact H0
  isplitl [H1]
  · iexists _; isplitr; · ipureintro; exact harg2.read_unread _
    iexact H1
  isplitl [H3]
  · have h := fun w f => owns_of_whole_store (Val := Elt F) (Ix := Unit) (Name := ℕ) (U := UR sig nD τ) (Lvl := ℕ) (c : Thread nD τ) arg3 fullShare hz inb_S12800x128_S12800x128_0_0 w f []
    unfold owns at h
    iapply h; iexact H3
  · have h := fun w f => owns_of_whole_store (Val := Elt F) (Ix := Unit) (Name := ℕ) (U := UR sig nD τ) (Lvl := ℕ) (c : Thread nD τ) arg5 fullShare hz inb_S64x128_S64x128_0_0 w f []
    unfold owns at h
    iapply h; iexact H5

end Cert.Kernel.Hand

end
-- ==== Proof.KBefore.lean ====
import proofs.«131046_g35527969473089_cont_8to1_b_1767_21_alg».proof.Proof.KData
import proofs.«131046_g35527969473089_cont_8to1_b_1767_21_alg».proof.Proof.KSched
import proofs.«131046_g35527969473089_cont_8to1_b_1767_21_alg».proof.Proof.KMask
import proofs.«131046_g35527969473089_cont_8to1_b_1767_21_alg».proof.Proof.KRunEmit
import proofs.«131046_g35527969473089_cont_8to1_b_1767_21_alg».proof.Proof.KRunAcc
import proofs.«131046_g35527969473089_cont_8to1_b_1767_21_alg».proof.Proof.KRunFirst
import proofs.«131046_g35527969473089_cont_8to1_b_1767_21_alg».proof.Proof.KRunTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## What the body finds in the input buffers -/

/-- Up to step 7 an input's buffer was just fetched: its block on the part inside the array, anything past it. -/
theorem before_0_lo (c : Dev nD) (t : Fin cfg0.N) (h : t.val < 8) (d) :
    (dats m 0 c).before 0 t d = win0_0.fill (grid0.coords t) d (iblk m c 0 t) := by
  rw [(dats m 0 c).before_fetched 0 t (fetch_0 t h)]; unfold Dat.fetched Dat.blockOf iblk; rw [A_eq]
theorem before_1_lo (c : Dev nD) (t : Fin cfg0.N) (h : t.val < 8) (d) :
    (dats m 0 c).before 1 t d = win0_1.fill (grid0.coords t) d (iblk m c 1 t) := by
  rw [(dats m 0 c).before_fetched 1 t (fetch_1 t h)]; unfold Dat.fetched Dat.blockOf iblk; rw [A_eq]

/-- Before step 7 no block is cut, so the buffer holds the block whatever was there. -/
theorem fill_0_lo (c : Dev nD) (t : Fin cfg0.N) (h : t.val < 7) (d) :
    win0_0.fill (grid0.coords t) d (iblk m c 0 t) = blkA m c t.val := by
  rw [blkA_eq m c t (by omega)]; exact Pipeline.fill_of_clip_none (cfg := cfg0) 0 _ (noclip_0 t h) _ _ _
theorem fill_1_lo (c : Dev nD) (t : Fin cfg0.N) (h : t.val < 7) (d) :
    win0_1.fill (grid0.coords t) d (iblk m c 1 t) = blkE m c t.val := by
  rw [blkE_eq m c t (by omega)]; exact Pipeline.fill_of_clip_none (cfg := cfg0) 1 _ (noclip_1 t h) _ _ _

theorem cut_blkA (c : Dev nD) (t : Fin cfg0.N) (h : t.val < 8) :
    win0_0.cut (grid0.coords t) (blkA m c t.val) = iblk m c 0 t := by
  rw [blkA_eq m c t h]; exact win0_0.cut_fill _ _ _
theorem cut_blkE (c : Dev nD) (t : Fin cfg0.N) (h : t.val < 8) :
    win0_1.cut (grid0.coords t) (blkE m c t.val) = iblk m c 1 t := by
  rw [blkE_eq m c t h]; exact win0_1.cut_fill _ _ _

/-- From step 8 on the inputs are not fetched again: each buffer still holds, on the part a transfer would move,
    what the step before left there — the last block. -/
theorem hold_0 (c : Dev nD) (t : Fin cfg0.N) (h : 8 ≤ t.val) (d) :
    ∃ d', (dats m 0 c).before 0 t d = win0_0.fill (grid0.coords t) d' (win0_0.cut (grid0.coords t) (blkA m c t.val)) := by
  refine ⟨(dats m 0 c).before 0 t d, ?_⟩
  symm
  apply Window.fill_congr_cut
  rw [(dats m 0 c).before_unfetched_in 0 rfl t (nofetch_0 t h) (fun _ => rfl)]
  unfold Dat.kept
  rw [after_0, blkA_hold m c t.val (by omega)]
  show win0_0.cut (grid0.coords t) (win0_0.fill (grid0.coords ⟨t.val - 1, _⟩) d (win0_0.cut (grid0.coords ⟨t.val - 1, _⟩) (blkA m c (t.val - 1)))) = _
  rw [blkA_hold m c (t.val - 1) (by omega)]
  funext j
  have hm : win0_0.moved (grid0.coords ⟨t.val - 1, Nat.lt_of_le_of_lt (Nat.sub_le _ _) t.isLt⟩) (win0_0.xinj (grid0.coords t) j) = true :=
    (win0_0.moved_iff _ _).mpr fun a => by
      have hx : win0_0.xsize (grid0.coords ⟨t.val - 1, Nat.lt_of_le_of_lt (Nat.sub_le _ _) t.isLt⟩) a = (![64, 10400] : Fin 2 → Nat) a :=
        congrFun (xsize_0 ⟨t.val - 1, Nat.lt_of_le_of_lt (Nat.sub_le _ _) t.isLt⟩ (by show 7 ≤ t.val - 1; omega)) a
      have hy : win0_0.xsize (grid0.coords t) a = (![64, 10400] : Fin 2 → Nat) a := congrFun (xsize_0 t (by omega)) a
      have hj : (j a).val < win0_0.xsize (grid0.coords t) a := (j a).isLt
      rw [hx]; rw [hy] at hj; exact hj
  show win0_0.fill _ d _ (win0_0.xinj (grid0.coords t) j) = _
  unfold Window.fill; rw [dif_pos hm]
theorem hold_1 (c : Dev nD) (t : Fin cfg0.N) (h : 8 ≤ t.val) (d) :
    ∃ d', (dats m 0 c).before 1 t d = win0_1.fill (grid0.coords t) d' (win0_1.cut (grid0.coords t) (blkE m c t.val)) := by
  refine ⟨(dats m 0 c).before 1 t d, ?_⟩
  symm
  apply Window.fill_congr_cut
  rw [(dats m 0 c).before_unfetched_in 1 rfl t (nofetch_1 t h) (fun _ => rfl)]
  unfold Dat.kept
  rw [after_1, blkE_hold m c t.val (by omega)]
  show win0_1.cut (grid0.coords t) (win0_1.fill (grid0.coords ⟨t.val - 1, _⟩) d (win0_1.cut (grid0.coords ⟨t.val - 1, _⟩) (blkE m c (t.val - 1)))) = _
  rw [blkE_hold m c (t.val - 1) (by omega)]
  funext j
  have hm : win0_1.moved (grid0.coords ⟨t.val - 1, Nat.lt_of_le_of_lt (Nat.sub_le _ _) t.isLt⟩) (win0_1.xinj (grid0.coords t) j) = true :=
    (win0_1.moved_iff _ _).mpr fun a => by
      have hx : win0_1.xsize (grid0.coords ⟨t.val - 1, Nat.lt_of_le_of_lt (Nat.sub_le _ _) t.isLt⟩) a = (![10400, 128] : Fin 2 → Nat) a :=
        congrFun (xsize_1 ⟨t.val - 1, Nat.lt_of_le_of_lt (Nat.sub_le _ _) t.isLt⟩ (by show 7 ≤ t.val - 1; omega)) a
      have hy : win0_1.xsize (grid0.coords t) a = (![10400, 128] : Fin 2 → Nat) a := congrFun (xsize_1 t (by omega)) a
      have hj : (j a).val < win0_1.xsize (grid0.coords t) a := (j a).isLt
      rw [hx]; rw [hy] at hj; exact hj
  show win0_1.fill _ d _ (win0_1.xinj (grid0.coords t) j) = _
  unfold Window.fill; rw [dif_pos hm]

end Cert.Kernel.Hand

end
-- ==== Proof.KOblig.lean ====
import proofs.«131046_g35527969473089_cont_8to1_b_1767_21_alg».proof.Proof.KBefore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body obligation -/

/-- A store or a load through the box at offsets equal to `![k, 0, 0]` is one through slab `k`. -/
theorem overlay_slab {off : Fin 3 → Nat} (k : ℕ) (hk : k < 7) (hoff : off = ![k, 0, 0])
    (inb : ∀ a, off a + S1x64x12800.size a ≤ S7x64x12800.size a) (xs4 : Vec F S7x64x12800 .bf16) (w : FVec F S1x64x12800 .bf16) :
    (Rect.unit (s := S7x64x12800) off S1x64x12800.size inb).overlay xs4 w = (slab k hk).overlay xs4 w := by
  subst hoff; rfl
theorem ld_slab {off : Fin 3 → Nat} (k : ℕ) (hk : k < 7) (hoff : off = ![k, 0, 0])
    (inb : ∀ a, off a + S1x64x12800.size a ≤ S7x64x12800.size a) (xs4 : Vec F S7x64x12800 .bf16) :
    View.ld xs4 (Rect.unit (s := S7x64x12800) off S1x64x12800.size inb) = View.ld xs4 (slab k hk) := by
  subst hoff; rfl

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) : (dats m 0 c).leaves 0 t
    = iprop(∃ d, owns (c : Thread nD τ) (ms0 t) fullShare (win0_0.fill (grid0.coords t) d (win0_0.cut (grid0.coords t) (blkA m c t.val)))) := by
  unfold Dat.leaves; rw [after_0]; rfl
theorem leaves_1 (c : Dev nD) (t : Fin cfg0.N) : (dats m 0 c).leaves 1 t
    = iprop(∃ d, owns (c : Thread nD τ) (ms1 t) fullShare (win0_1.fill (grid0.coords t) d (win0_1.cut (grid0.coords t) (blkE m c t.val)))) := by
  unfold Dat.leaves; rw [after_1]; rfl
theorem leaves_2_idle (c : Dev nD) (t : Fin cfg0.N) (h : t.val < 7) : (dats m 0 c).leaves 2 t
    = iprop(∃ d, owns (c : Thread nD τ) (ms2 t) fullShare ((dats m 0 c).before 2 t d)) :=
  (dats m 0 c).leaves_idle 2 t (idle_2 t h) (noflush_2 t h)
theorem leaves_2_live (c : Dev nD) (t : Fin cfg0.N) (h : 7 ≤ t.val) : (dats m 0 c).leaves 2 t
    = iprop(∃ d, owns (c : Thread nD τ) (ms2 t) fullShare (win0_2.fill (grid0.coords t) d (win0_2.cut (grid0.coords t) (outAfter m c t.val)))) := by
  unfold Dat.leaves; rw [live_2 t h, after_2]; rfl

theorem Phi_castSucc (c : Dev nD) (t : Fin cfg0.N) : (dats m 0 c).Φ t.castSucc = PhiS m c t.val := rfl
theorem Phi_succ (c : Dev nD) (t : Fin cfg0.N) : (dats m 0 c).Φ t.succ = PhiS m c (t.val + 1) := rfl

set_option maxHeartbeats 4000000 in
/-- The body at any step: the conditions' closed forms say which of the four shapes the step has; the invariant
    hands the body the stash and the accumulator as the step before left them and takes them back as this one does. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_0, leaves_1]
  rw [show (dats m 0 c).owesAt () t.succ = (dats m 0 c).owesAt () t.castSucc from rfl]
  rw [Phi_castSucc, Phi_succ]
  have h15 : cfg0.N = 15 := N_0
  have htlt := t.isLt
  by_cases h0 : t.val = 0
  · -- step 0
    have hc1 : cond1 (grid0.coords t) := (hcond1 t).mpr h0
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    have hoff : k0_off1 (grid0.coords t) = ![0, 0, 0] := (off1_eq t (by omega)).trans (by rw [h0])
    rw [leaves_2_idle m c t (by omega)]
    have f0 := fun d => (before_0_lo m c t (by omega) d).trans (fill_0_lo m c t (by omega) d)
    have f1 := fun d => (before_1_lo m c t (by omega) d).trans (fill_1_lo m c t (by omega) d)
    rw [h0] at f0 f1
    simp only [f0, f1]
    rw [h0]
    simp only [PhiS]
    rw [PhiA_eq]
    iintro ⟨⟨⟨⟨%x4, H4⟩, H5⟩, Hg⟩, Ho, ⟨%d0, H0⟩, ⟨%d1, H1⟩, H2⟩
    iapply (run_first c (grid0.coords t) (ms0 t) (hs0 t) (ms1 t) (hs1 t) (ms2 t) (hs2 t) scStash (Memref.isWhole_whole _) scLat (Memref.isWhole_whole _) hc1 hc2 hc3 hc4 (blkA m c 0) (blkE m c 0) x4 Set.univ _)
    isplitl [H0]; · iexact H0
    isplitl [H1]; · iexact H1
    isplitl [H4]; · iexact H4
    isplitl [H5]; · iexact H5
    iintro ⟨H0, H1, H4, H5⟩
    isplitl [H4 H5 Hg]
    · isplitl [H4]
      · iexists _; isplitr
        swap; · iexact H4
        ipureintro
        rw [overlay_slab 0 (by omega) hoff]; exact stashOk_zero m c x4
      isplitl [H5]
      · rw [show latAfter m c 0 = k0_pay4 (blkA m c 0) (blkE m c 0) (k0_pay1 (F := F)) from rfl]; iexact H5
      iexact Hg
    isplitl [Ho]; · iexact Ho
    isplitl [H0]; · iexists (blkA m c 0); rw [Window.fill_cut]; iexact H0
    isplitl [H1]; · iexists (blkE m c 0); rw [Window.fill_cut]; iexact H1
    iexact H2
  by_cases h6 : t.val < 7
  · -- steps 1 to 6
    obtain ⟨k, hk⟩ : ∃ k, t.val = k + 1 := ⟨t.val - 1, by omega⟩
    have hc1 : ¬cond1 (grid0.coords t) := fun h => h0 ((hcond1 t).mp h)
    have hc2 : cond2 (grid0.coords t) := (hcond2 t).mpr h6
    have hc3 : ¬cond3 (grid0.coords t) := fun h => by have := (hcond3 t).mp h; omega
    have hc4 : ¬cond4 (grid0.coords t) := fun h => by have := (hcond4 t).mp h; omega
    have hoff : k0_off1 (grid0.coords t) = ![k + 1, 0, 0] := (off1_eq t h6).trans (by rw [hk])
    rw [leaves_2_idle m c t h6]
    have f0 := fun d => (before_0_lo m c t (by omega) d).trans (fill_0_lo m c t h6 d)
    have f1 := fun d => (before_1_lo m c t (by omega) d).trans (fill_1_lo m c t h6 d)
    rw [hk] at f0 f1
    simp only [f0, f1]
    rw [hk]
    simp only [PhiS]
    iintro ⟨⟨⟨%x4, %hx4, H4⟩, H5, Hg⟩, Ho, ⟨%d0, H0⟩, ⟨%d1, H1⟩, H2⟩
    iapply (run_acc c (grid0.coords t) (ms0 t) (hs0 t) (ms1 t) (hs1 t) (ms2 t) (hs2 t) scStash (Memref.isWhole_whole _) scLat (Memref.isWhole_whole _) hc1 hc2 hc3 hc4 (blkA m c (k + 1)) (blkE m c (k + 1)) x4 (latAfter m c k) Set.univ _)
    isplitl [H0]; · iexact H0
    isplitl [H1]; · iexact H1
    isplitl [H4]; · iexact H4
    isplitl [H5]; · iexact H5
    iintro ⟨H0, H1, H4, H5⟩
    isplitl [H4 H5 Hg]
    · isplitl [H4]
      · iexists _; isplitr
        swap; · iexact H4
        ipureintro
        rw [overlay_slab (k + 1) (by omega) hoff]; exact stashOk_step m c k (by omega) x4 hx4
      isplitl [H5]
      · rw [latAfter_acc m c k (by omega)]; iexact H5
      iexact Hg
    isplitl [Ho]; · iexact Ho
    isplitl [H0]; · iexists (blkA m c (k + 1)); rw [Window.fill_cut]; iexact H0
    isplitl [H1]; · iexists (blkE m c (k + 1)); rw [Window.fill_cut]; iexact H1
    iexact H2
  by_cases h7 : t.val = 7
  · -- step 7: the ragged last block
    have hk : t.val = 6 + 1 := h7
    have hc1 : ¬cond1 (grid0.coords t) := fun h => h0 ((hcond1 t).mp h)
    have hc2 : ¬cond2 (grid0.coords t) := fun h => h6 ((hcond2 t).mp h)
    have hc3 : cond3 (grid0.coords t) := (hcond3 t).mpr h7
    have hc4 : ¬cond4 (grid0.coords t) := fun h => by have := (hcond4 t).mp h; omega
    have hA : blkA m c (6 + 1) = win0_0.fill (grid0.coords t) (fun _ => Scalar.ofBits .f32 0#32) (iblk m c 0 t) := by
      rw [← hk]; exact blkA_eq m c t (by omega)
    have hE : blkE m c (6 + 1) = win0_1.fill (grid0.coords t) (fun _ => Scalar.ofBits .f32 0#32) (iblk m c 1 t) := by
      rw [← hk]; exact blkE_eq m c t (by omega)
    rw [leaves_2_live m c t (by omega)]
    simp only [before_0_lo m c t (by omega), before_1_lo m c t (by omega)]
    rw [hk]
    simp only [PhiS]
    iintro ⟨⟨⟨%x4, %hx4, H4⟩, H5, Hg⟩, Ho, ⟨%d0, H0⟩, ⟨%d1, H1⟩, ⟨%d2, H2⟩⟩
    iapply (run_tail c (grid0.coords t) (ms0 t) (hs0 t) (ms1 t) (hs1 t) (ms2 t) (hs2 t) scStash (Memref.isWhole_whole _) scLat (Memref.isWhole_whole _) hc1 hc2 hc3 hc4 (win0_0.fill (grid0.coords t) d0 (iblk m c 0 t)) (win0_1.fill (grid0.coords t) d1 (iblk m c 1 t)) (latAfter m c 6) Set.univ _)
    isplitl [H0]; · iexact H0
    isplitl [H1]; · iexact H1
    isplitl [H2]; · iexists _; iexact H2
    isplitl [H5]; · iexact H5
    iintro ⟨H0, H1, H3, H5⟩
    isplitl [H4 H5 Hg]
    · isplitl [H4]
      · iexists x4; isplitr
        · ipureintro; exact stashOk_mono m c 6 (6 + 1) (Nat.le_refl _) x4 hx4
        iexact H4
      isplitl [H5]
      · rw [show latAfter m c (6 + 1) = k0_pay7 (blkA m c (6 + 1)) (blkE m c (6 + 1)) (latAfter m c 6) from latAfter_tail m c, hA, hE]
        erw [pay7_fill t (by omega) (fun _ => Scalar.ofBits .f32 0#32) d0 (iblk m c 0 t) (fun _ => Scalar.ofBits .f32 0#32) d1 (iblk m c 1 t) (latAfter m c 6)]
        iexact H5
      iexact Hg
    isplitl [Ho]; · iexact Ho
    isplitl [H0]; · iexists d0; rw [hA, Window.cut_fill]; iexact H0
    isplitl [H1]; · iexists d1; rw [hE, Window.cut_fill]; iexact H1
    iexists (outAfter m c (6 + 1)); rw [Window.fill_cut]
    rw [show outAfter m c (6 + 1) = k0_pay8 (blkA m c (6 + 1)) (blkE m c (6 + 1)) (latAfter m c 6) from if_pos rfl, hA, hE]
    erw [pay8_fill t (by omega) (fun _ => Scalar.ofBits .f32 0#32) d0 (iblk m c 0 t) (fun _ => Scalar.ofBits .f32 0#32) d1 (iblk m c 1 t) (latAfter m c 6)]
    iexact H3
  · -- steps 8 to 14: emit
    have h8 : 8 ≤ t.val := by omega
    obtain ⟨k, hk⟩ : ∃ k, t.val = k + 1 := ⟨t.val - 1, by omega⟩
    have hc1 : ¬cond1 (grid0.coords t) := fun h => h0 ((hcond1 t).mp h)
    have hc2 : ¬cond2 (grid0.coords t) := fun h => h6 ((hcond2 t).mp h)
    have hc3 : ¬cond3 (grid0.coords t) := fun h => h7 ((hcond3 t).mp h)
    have hc4 : cond4 (grid0.coords t) := (hcond4 t).mpr h8
    have hoff : k0_off2 (grid0.coords t) = ![k + 1 - 8, 0, 0] := (off2_eq t h8).trans (by rw [hk])
    have hh0 := hold_0 m c t h8
    have hh1 := hold_1 m c t h8
    rw [leaves_2_live m c t (by omega)]
    rw [hk] at hh0 hh1
    rw [hk]
    simp only [PhiS]
    iintro ⟨⟨⟨%x4, %hx4, H4⟩, H5, Hg⟩, Ho, ⟨%d0, H0⟩, ⟨%d1, H1⟩, ⟨%d2, H2⟩⟩
    obtain ⟨d0', e0⟩ := hh0 d0
    obtain ⟨d1', e1⟩ := hh1 d1
    rw [e0, e1]
    iapply (run_emit c (grid0.coords t) (ms0 t) (hs0 t) (ms1 t) (hs1 t) (ms2 t) (hs2 t) scStash (Memref.isWhole_whole _) scLat (Memref.isWhole_whole _) hc1 hc2 hc3 hc4 x4 (latAfter m c k) Set.univ _)
    isplitl [H2]; · iexists _; iexact H2
    isplitl [H4]; · iexact H4
    isplitl [H5]; · iexact H5
    iintro ⟨H3, H4, H5⟩
    isplitl [H4 H5 Hg]
    · isplitl [H4]
      · iexists x4; isplitr
        · ipureintro; exact stashOk_mono m c k (k + 1) (by omega) x4 hx4
        iexact H4
      isplitl [H5]
      · rw [latAfter_emit m c k (by omega)]; iexact H5
      iexact Hg
    isplitl [Ho]; · iexact Ho
    isplitl [H0]; · iexists d0'; iexact H0
    isplitl [H1]; · iexists d1'; iexact H1
    iexists (outAfter m c (k + 1)); rw [Window.fill_cut]
    have hld : View.ld x4 (Rect.unit (s := S7x64x12800) (k0_off2 (grid0.coords t)) S1x64x12800.size (k0_off2_inb (grid0.coords t) hc4))
        = k0_pay3 (blkA m c (k + 1 - 8)) :=
      (ld_slab (k + 1 - 8) (by omega) hoff _ x4).trans (hx4 (k + 1 - 8) (by omega) (by omega))
    rw [show outAfter m c (k + 1) = k0_pay9 (k0_pay3 (blkA m c (k + 1 - 8))) (latAfter m c 7) from if_neg (by omega),
      ← hld, ← latAfter_const m c k (by omega)]
    iexact H3

end Cert.Kernel.Hand

end
-- ==== Proof.KFrameRun.lean ====
import proofs.«131046_g35527969473089_cont_8to1_b_1767_21_alg».proof.Proof.KOblig

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

/-- The library's body obligation, at every step. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first step. -/
theorem hin (c : Dev nD) : Pipeline.ΦA spec0 c ⊢ (dats m 0 c).Φ 0 := by
  rw [show (dats m 0 c).Φ 0 = PhiS m c 0 from rfl]
  exact Idealize.SL.BI.Entails.refl _

/-- After the last step the invariant gives the region's own back: what the stash and the accumulator hold is
    forgotten. -/
theorem hout (c : Dev nD) : (dats m 0 c).Φ (Fin.last cfg0.N) ⊢ Pipeline.ΦA spec0 c := by
  rw [show (dats m 0 c).Φ (Fin.last cfg0.N) = PhiS m c (14 + 1) from rfl]
  simp only [PhiS]
  rw [PhiA_eq]
  iintro ⟨⟨%x4, -, H4⟩, H5, Hg⟩
  isplitl [H4 H5]
  · isplitl [H4]
    · iexists _; iexact H4
    · iexists _; iexact H5
  iexact Hg

set_option backward.isDefEq.respectTransparency.types false in
/-- At the compiled mesh, for any values, from any memory with zero counters: every weakly fair execution of @main
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Conds.lean ====
import proofs.«131046_g35527969473089_cont_8to1_b_1767_21_alg».proof.Proof.Gen.KernelIdeal.Frame
import proofs.«131046_g35527969473089_cont_8to1_b_1767_21_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The four branch conditions of the body as propositions of the grid coordinate, and where each holds:
    the first at step 0 only, the second at steps 0..6, the third at step 7 only, the fourth from step 8 on. -/

abbrev cond1 (i : grid0.Coords) : Prop := (Scalar.cmpi .ne (Scalar.extui (Scalar.cmpi .eq (BitVec.ofNat 32 (i 0).val) 0#32)) 0#32) = 1#1
abbrev cond2 (i : grid0.Coords) : Prop := k0_cond2 i = 1#1
abbrev cond3 (i : grid0.Coords) : Prop := k0_cond3 i = 1#1
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 7 :=
  (by decide +kernel : ∀ t : Fin grid0.N, cond2 (grid0.coords t) ↔ t.val < 7)
theorem hcond3 : ∀ t : Fin cfg0.N, cond3 (grid0.coords t) ↔ t.val = 7 :=
  (by decide +kernel : ∀ t : Fin grid0.N, cond3 (grid0.coords t) ↔ t.val = 7)
theorem hcond4 : ∀ t : Fin cfg0.N, cond4 (grid0.coords t) ↔ 8 ≤ t.val :=
  (by decide +kernel : ∀ t : Fin grid0.N, cond4 (grid0.coords t) ↔ 8 ≤ t.val)

/-- The slab of the stash written at an accumulate step is the step's own. -/
theorem off1_eq : ∀ t : Fin cfg0.N, t.val < 7 → k0_off1 (grid0.coords t) = ![t.val, 0, 0] :=
  (by decide +kernel : ∀ t : Fin grid0.N, t.val < 7 → k0_off1 (grid0.coords t) = ![t.val, 0, 0])
/-- The slab of the stash read at an emit step g ≥ 8 is slab g - 8. -/
theorem off2_eq : ∀ t : Fin cfg0.N, 8 ≤ t.val → k0_off2 (grid0.coords t) = ![t.val - 8, 0, 0] :=
  (by decide +kernel : ∀ t : Fin grid0.N, 8 ≤ t.val → k0_off2 (grid0.coords t) = ![t.val - 8, 0, 0])

/-- The staging memrefs the pipeline passes at a step, and the two scratch operands. -/
abbrev ms0 (t : Fin cfg0.N) : Memref sig .tc .vmem S64x12800 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S12800x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S12800x128 .f32 := win0_2.stage (cfg0.slots t 2)
abbrev hs2 (t : Fin cfg0.N) : (ms2 t).IsWhole := hstage0_2 ((cfg0.slots t 2).cast nbuf0_2)
abbrev scStash : Memref sig .tc .vmem S7x64x12800 .bf16 := Memref.whole cc0_scratch0
abbrev scLat : Memref sig .tc .vmem S64x128 .f32 := Memref.whole cc0_scratch1

/-- The region's class invariant with the two scratch operands as memrefs owned at some contents. -/
theorem PhiA_eq (c : Dev nD) :
    (Pipeline.ΦA spec0 c : sProp 𝕄)
      = iprop(iprop((∃ d, owns (c : Thread nD τ) scStash fullShare d) ∗ (∃ d, owns (c : Thread nD τ) scLat fullShare d)) ∗ (∃ r, prngReg c r)) := by
  unfold Pipeline.ΦA; rw [scopedRest0_eq]; simp only [scStash, scLat, owns_whole]; try rfl

end Cert.KernelIdeal.Hand

end
-- ==== Proof.Data.lean ====
import proofs.«131046_g35527969473089_cont_8to1_b_1767_21_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! The proof data of the one pipeline: what each staging buffer and each scratch holds after every step. -/

/-- The grid point whose input blocks the buffers hold at step `n`: the step itself up to step 7, step 7 afterwards
    (the inputs' block index stays at the last block). -/
def pt (n : ℕ) : Fin cfg0.N := ⟨min n 7, by have := N_0; show min n 7 < grid0.N; omega⟩

theorem pt_val (t : Fin cfg0.N) (h : t.val < 8) : pt t.val = t :=
  Fin.ext (by show min t.val 7 = t.val; omega)

theorem pt_hold (n : ℕ) (h : 7 ≤ n) : pt n = pt 7 :=
  Fin.ext (by show min n 7 = min 7 7; omega)

/-- The block of the transposed adjacency the input buffer holds at step `n` (columns 12800·min(n,7) on), and
    the block of the embeddings (rows 12800·min(n,7) on), each filled out past the array's end with zeros. -/
def blkA (c : Dev nD) (n : ℕ) : S64x12800.Idx → Elt F .f32 :=
  win0_0.fill (grid0.coords (pt n)) (fun _ => Scalar.ofBits .f32 0#32) (iblk m c 0 (pt n))
def blkE (c : Dev nD) (n : ℕ) : S12800x128.Idx → Elt F .f32 :=
  win0_1.fill (grid0.coords (pt n)) (fun _ => Scalar.ofBits .f32 0#32) (iblk m c 1 (pt n))

/-- The accumulator after step `n`: zero plus the products of the rounded blocks 0..n for n ≤ 6, the masked
    last block added at step 7, unchanged afterwards. -/
def latAfter (c : Dev nD) : ℕ → Vec F S64x128 .f32
  | 0 => k0_pay4 (blkA m c 0) (blkE m c 0) (k0_pay1 (F := F))
  | n + 1 =>
    if n + 1 < 7 then k0_pay4 (blkA m c (n + 1)) (blkE m c (n + 1)) (latAfter c n)
    else if n + 1 = 7 then k0_pay7 (blkA m c 7) (blkE m c 7) (latAfter c n)
    else latAfter c n

theorem blkA_hold (c : Dev nD) (n : ℕ) (h : 7 ≤ n) : blkA m c n = blkA m c 7 := by
  unfold blkA; rw [pt_hold n h]
theorem blkE_hold (c : Dev nD) (n : ℕ) (h : 7 ≤ n) : blkE m c n = blkE m c 7 := by
  unfold blkE; rw [pt_hold n h]
theorem blkA_eq (c : Dev nD) (t : Fin cfg0.N) (h : t.val < 8) :
    blkA m c t.val = win0_0.fill (grid0.coords t) (fun _ => Scalar.ofBits .f32 0#32) (iblk m c 0 t) := by
  unfold blkA; rw [pt_val t h]
theorem blkE_eq (c : Dev nD) (t : Fin cfg0.N) (h : t.val < 8) :
    blkE m c t.val = win0_1.fill (grid0.coords t) (fun _ => Scalar.ofBits .f32 0#32) (iblk m c 1 t) := by
  unfold blkE; rw [pt_val t h]

theorem latAfter_acc (c : Dev nD) (n : ℕ) (h : n + 1 < 7) :
    latAfter m c (n + 1) = k0_pay4 (blkA m c (n + 1)) (blkE m c (n + 1)) (latAfter m c n) := by
  rw [latAfter, if_pos h]
theorem latAfter_tail (c : Dev nD) : latAfter m c 7 = k0_pay7 (blkA m c 7) (blkE m c 7) (latAfter m c 6) := by
  rw [latAfter, if_neg (by omega), if_pos rfl]
theorem latAfter_emit (c : Dev nD) (n : ℕ) (h : 7 ≤ n) : latAfter m c (n + 1) = latAfter m c n := by
  rw [latAfter, if_neg (by omega), if_neg (by omega)]

theorem latAfter_const (c : Dev nD) (n : ℕ) (h : 7 ≤ n) : latAfter m c n = latAfter m c 7 := by
  induction n, h using Nat.le_induction with
  | base => rfl
  | succ n hn ih => rw [latAfter_emit m c n hn, ih]

/-- Slab `k` of the stash: the 1×64×12800 box at leading offset `k`. -/
abbrev slab (k : ℕ) (hk : k < 7) : Rect S7x64x12800 :=
  Rect.unit ![k, 0, 0] S1x64x12800.size (fun a => by
    match a with
    | ⟨0, _⟩ => show k + 1 ≤ 7; omega
    | ⟨1, _⟩ => show 0 + 64 ≤ 64; omega
    | ⟨2, _⟩ => show 0 + 12800 ≤ 12800; omega)

theorem unit_congr {s : Shape} {off off' : Fin s.rank → Nat} {sz : Fin s.rank → Nat} (h : off = off')
    (inb : ∀ a, off a + sz a ≤ s.size a) (inb' : ∀ a, off' a + sz a ≤ s.size a) :
    Rect.unit (s := s) off sz inb = Rect.unit off' sz inb' := by subst h; rfl

/-- The stash after step `n`: slabs 0..min(n,6) hold the rounded adjacency blocks of those steps; nothing is
    said of the others. -/
def StashOk (c : Dev nD) (n : ℕ) (xs4 : Vec F S7x64x12800 .bf16) : Prop :=
  ∀ k (hk : k < 7), k ≤ n → View.ld xs4 (slab k hk) = k0_pay3 (blkA m c k)

theorem slab_disjoint (k k' : ℕ) (hk : k < 7) (hk' : k' < 7) (hne : k ≠ k') (x : (slab k hk).shape.Idx) :
    (slab k hk).emb x ∉ (slab k' hk').set := by
  intro hmem
  have h0 := (Rect.mem_set_unit.mp hmem) (0 : Fin 3)
  have e : (((slab k hk).emb x) (0 : Fin 3)).val = k + 1 * (x (0 : Fin 3)).val := by
    rw [Rect.emb_apply]; rfl
  have hx : (x (0 : Fin 3)).val < 1 := (x (0 : Fin 3)).isLt
  have h0' : k' ≤ (((slab k hk).emb x) (0 : Fin 3)).val ∧ (((slab k hk).emb x) (0 : Fin 3)).val < k' + 1 := h0
  omega

theorem stashOk_zero (c : Dev nD) (xs4 : Vec F S7x64x12800 .bf16) :
    StashOk m c 0 ((slab 0 (by omega)).overlay xs4 (k0_pay3 (blkA m c 0))) := by
  intro k hk hle
  obtain rfl : k = 0 := by omega
  funext x
  exact Rect.overlay_emb _ _ _ x

theorem stashOk_step (c : Dev nD) (n : ℕ) (hn : n + 1 < 7) (xs4 : Vec F S7x64x12800 .bf16) (h : StashOk m c n xs4) :
    StashOk m c (n + 1) ((slab (n + 1) hn).overlay xs4 (k0_pay3 (blkA m c (n + 1)))) := by
  intro k hk hle
  funext x
  by_cases e : k = n + 1
  · subst e; exact Rect.overlay_emb _ _ _ x
  · show (slab (n + 1) hn).overlay xs4 _ ((slab k hk).emb x) = _
    exact (Rect.overlay_of_not_mem _ _ _ (slab_disjoint k (n + 1) hk hn e x)).trans (congrFun (h k hk (by omega)) x)

theorem stashOk_mono (c : Dev nD) (n n' : ℕ) (hn : 6 ≤ n) (xs4 : Vec F S7x64x12800 .bf16) (h : StashOk m c n xs4) :
    StashOk m c n' xs4 := fun k hk _ => h k hk (by omega)

/-- The result block after step `n`: at step 7 the masked last adjacency block times the complete accumulator,
    at step n ≥ 8 the stashed block n - 8 times it. -/
def outAfter (c : Dev nD) (n : ℕ) : Vec F S12800x128 .f32 :=
  if n = 7 then k0_pay8 (blkA m c 7) (blkE m c 7) (latAfter m c 6)
  else k0_pay9 (k0_pay3 (blkA m c (n - 8))) (latAfter m c 7)

/-- The invariant before step `n`: the region's own before the first step; afterwards the stash as `StashOk`
    says, the accumulator at `latAfter`, and the generator register at some state. -/
def PhiS (c : Dev nD) : ℕ → sProp 𝕄
  | 0 => Pipeline.ΦA spec0 c
  | n + 1 => iprop((∃ xs4, ⌜StashOk m c n xs4⌝ ∗ owns (c : Thread nD τ) scStash fullShare xs4)
      ∗ owns (c : Thread nD τ) scLat fullShare (latAfter m c n) ∗ (∃ r, prngReg c r))

/-- The proof data: the arrays as the region finds them; after step `t` the two input buffers at their blocks,
    the result buffer at `outAfter`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blkA m c t.val
    | ⟨1, _⟩ => blkE m c t.val
    | ⟨2, _⟩ => outAfter m c t.val
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = blkA m c t.val := by dsimp only [dats]
theorem after_1 (c : Dev nD) (t : Fin cfg0.N) : (dats m 0 c).after 1 t = blkE m c t.val := by dsimp only [dats]
theorem after_2 (c : Dev nD) (t : Fin cfg0.N) : (dats m 0 c).after 2 t = outAfter m c t.val := by dsimp only [dats]

end Cert.KernelIdeal.Hand

end
-- ==== Proof.Sched.lean ====
import proofs.«131046_g35527969473089_cont_8to1_b_1767_21_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The schedule of the pipeline over the 15 steps, decided over the grid: the two inputs are fetched at steps
    0..7 and never again (their block index stays at 7), never written back; only their last block (index 7) is
    cut at the arrays' end; the result's buffer is idle at steps 0..6 and not written back there. -/

theorem fetch_0 : ∀ t : Fin cfg0.N, t.val < 8 → (cfg0.win 0).fetch t = true :=
  (by decide +kernel : ∀ t : Fin grid0.N, t.val < 8 → (cfg0.win 0).fetch t = true)
theorem fetch_1 : ∀ t : Fin cfg0.N, t.val < 8 → (cfg0.win 1).fetch t = true :=
  (by decide +kernel : ∀ t : Fin grid0.N, t.val < 8 → (cfg0.win 1).fetch t = true)
theorem nofetch_0 : ∀ t : Fin cfg0.N, 8 ≤ t.val → (cfg0.win 0).fetch t = false :=
  (by decide +kernel : ∀ t : Fin grid0.N, 8 ≤ t.val → (cfg0.win 0).fetch t = false)
theorem nofetch_1 : ∀ t : Fin cfg0.N, 8 ≤ t.val → (cfg0.win 1).fetch t = false :=
  (by decide +kernel : ∀ t : Fin grid0.N, 8 ≤ t.val → (cfg0.win 1).fetch t = false)
theorem noflush_0 : ∀ t : Fin cfg0.N, (cfg0.win 0).flush t = false :=
  (by decide +kernel : ∀ t : Fin grid0.N, (cfg0.win 0).flush t = false)
theorem noflush_1 : ∀ t : Fin cfg0.N, (cfg0.win 1).flush t = false :=
  (by decide +kernel : ∀ t : Fin grid0.N, (cfg0.win 1).flush t = false)
theorem idle_2 : ∀ t : Fin cfg0.N, t.val < 7 → cfg0.idle 2 (grid0.coords t) = true :=
  (by decide +kernel : ∀ t : Fin grid0.N, t.val < 7 → cfg0.idle 2 (grid0.coords t) = true)
theorem live_2 : ∀ t : Fin cfg0.N, 7 ≤ t.val → cfg0.idle 2 (grid0.coords t) = false :=
  (by decide +kernel : ∀ t : Fin grid0.N, 7 ≤ t.val → cfg0.idle 2 (grid0.coords t) = false)
theorem noflush_2 : ∀ t : Fin cfg0.N, t.val < 7 → (cfg0.win 2).flush t = false :=
  (by decide +kernel : ∀ t : Fin grid0.N, t.val < 7 → (cfg0.win 2).flush t = false)
theorem flush_2 : ∀ t : Fin cfg0.N, 7 ≤ t.val → (cfg0.win 2).flush t = true :=
  (by decide +kernel : ∀ t : Fin grid0.N, 7 ≤ t.val → (cfg0.win 2).flush t = true)
theorem noclip_0 : ∀ t : Fin cfg0.N, t.val < 7 → ∀ a, (cfg0.win 0).clip (grid0.coords t) a = none :=
  (by decide +kernel : ∀ t : Fin grid0.N, t.val < 7 → ∀ a, (cfg0.win 0).clip (grid0.coords t) a = none)
theorem noclip_1 : ∀ t : Fin cfg0.N, t.val < 7 → ∀ a, (cfg0.win 1).clip (grid0.coords t) a = none :=
  (by decide +kernel : ∀ t : Fin grid0.N, t.val < 7 → ∀ a, (cfg0.win 1).clip (grid0.coords t) a = none)
/-- From step 7 on the inputs' moved part is the last block's: 64 × 10400 of the adjacency, 10400 × 128 of the
    embeddings. -/
theorem xsize_0 : ∀ t : Fin cfg0.N, 7 ≤ t.val → (cfg0.win 0).xsize (grid0.coords t) = ![64, 10400] :=
  (by decide +kernel : ∀ t : Fin grid0.N, 7 ≤ t.val → (cfg0.win 0).xsize (grid0.coords t) = ![64, 10400])
theorem xsize_1 : ∀ t : Fin cfg0.N, 7 ≤ t.val → (cfg0.win 1).xsize (grid0.coords t) = ![10400, 128] :=
  (by decide +kernel : ∀ t : Fin grid0.N, 7 ≤ t.val → (cfg0.win 1).xsize (grid0.coords t) = ![10400, 128])

end Cert.KernelIdeal.Hand

end
-- ==== Proof.Mask.lean ====
import proofs.«131046_g35527969473089_cont_8to1_b_1767_21_alg».proof.Proof.Sched
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! At the ragged last block the body masks both rounded operands to the part inside the arrays, so what the
    staging buffers hold past the arrays' end never reaches a result. -/

/-- A lane number below 12800 compares below 10400 as a signed 32-bit word exactly when it is. -/
theorem slt_iff (n : Nat) (hn : n < 12800) : (IntOp.cmpi .slt (BitVec.ofNat 32 n) 10400#32 = 1#1) ↔ n < 10400 := by
  unfold IntOp.cmpi
  have e : (BitVec.ofNat 32 n).slt 10400#32 = decide (n < 10400) := by
    rw [BitVec.slt]
    have h1 : (BitVec.ofNat 32 n).toInt = n := by
      unfold BitVec.toInt; rw [BitVec.toNat_ofNat, Nat.mod_eq_of_lt (by omega)]; rw [if_pos (by omega)]
    have h2 : (10400#32 : BitVec 32).toInt = 10400 := by decide
    rw [h1, h2]
    simp only [decide_eq_decide]; omega
  simp only [e]
  by_cases h : n < 10400 <;> simp [h]

/-- The masked rounded adjacency block does not depend on what fills the buffer past column 10400. -/
theorem pay5_fill (t : Fin cfg0.N) (h7 : 7 ≤ t.val) (d d' : S64x12800.Idx → Elt F .f32)
    (g : (win0_0.xblock (grid0.coords t)).Idx → Elt F .f32) :
    k0_pay5 (F := F) (win0_0.fill (grid0.coords t) d g) = k0_pay5 (win0_0.fill (grid0.coords t) d' g) := by
  funext j
  unfold k0_pay5
  dsimp only
  simp only [select, Scalar.select, truncf, cmpi, iota, broadcast, List.foldl_cons, List.foldl_nil, Nat.zero_mul, Nat.zero_add]
  rw [shapeCast_self, shapeCast_self]
  have hj1 : (j 1).val < 12800 := (j 1).isLt
  have hj0 : (j 0).val < 64 := (j 0).isLt
  by_cases hlt : (j 1).val < 10400
  · have hm : win0_0.moved (grid0.coords t) j = true := (win0_0.moved_iff _ j).mpr fun a => by
      have hx : win0_0.xsize (grid0.coords t) a = (![64, 10400] : Fin 2 → Nat) a := congrFun (xsize_0 t h7) a
      rw [hx]
      match a with
      | ⟨0, _⟩ => exact hj0
      | ⟨1, _⟩ => exact hlt
    unfold Window.fill; rw [dif_pos hm, dif_pos hm]
  · have hne : ¬ (IntOp.cmpi .slt (BitVec.ofNat 32 (j 1).val) 10400#32 = 1) := fun h => hlt ((slt_iff _ hj1).mp h)
    rw [if_neg hne, if_neg hne]

/-- The masked rounded embeddings block does not depend on what fills the buffer past row 10400. -/
theorem maskE_fill (t : Fin cfg0.N) (h7 : 7 ≤ t.val) (d d' : S12800x128.Idx → Elt F .f32)
    (g : (win0_1.xblock (grid0.coords t)).Idx → Elt F .f32) :
    select (cmpi .slt (iota .tc S12800x128 32 [0] iota_S12800x128_d0_w32) (broadcast S12800x128 (10400#32 : BitVec 32)))
        (truncf .bf16 (win0_1.fill (grid0.coords t) d g) bitsLt_bf16_f32) (broadcast S12800x128 (Scalar.ofBits (F := F) .bf16 0x0000#16))
      = select (cmpi .slt (iota .tc S12800x128 32 [0] iota_S12800x128_d0_w32) (broadcast S12800x128 (10400#32 : BitVec 32)))
        (truncf .bf16 (win0_1.fill (grid0.coords t) d' g) bitsLt_bf16_f32) (broadcast S12800x128 (Scalar.ofBits (F := F) .bf16 0x0000#16)) := by
  funext j
  simp only [select, Scalar.select, truncf, cmpi, iota, broadcast, List.foldl_cons, List.foldl_nil, Nat.zero_mul, Nat.zero_add]
  have hj0 : (j 0).val < 12800 := (j 0).isLt
  have hj1 : (j 1).val < 128 := (j 1).isLt
  by_cases hlt : (j 0).val < 10400
  · have hm : win0_1.moved (grid0.coords t) j = true := (win0_1.moved_iff _ j).mpr fun a => by
      have hx : win0_1.xsize (grid0.coords t) a = (![10400, 128] : Fin 2 → Nat) a := congrFun (xsize_1 t h7) a
      rw [hx]
      match a with
      | ⟨0, _⟩ => exact hlt
      | ⟨1, _⟩ => exact hj1
    unfold Window.fill; rw [dif_pos hm, dif_pos hm]
  · have hne : ¬ (IntOp.cmpi .slt (BitVec.ofNat 32 (j 0).val) 10400#32 = 1) := fun h => hlt ((slt_iff _ hj0).mp h)
    rw [if_neg hne, if_neg hne]

/-- So neither does the accumulator's last update, -/
theorem pay6_fill (t : Fin cfg0.N) (h7 : 7 ≤ t.val) (d0 d0' : S64x12800.Idx → Elt F .f32)
    (g0 : (win0_0.xblock (grid0.coords t)).Idx → Elt F .f32) (d1 d1' : S12800x128.Idx → Elt F .f32)
    (g1 : (win0_1.xblock (grid0.coords t)).Idx → Elt F .f32) (v : Vec F S64x128 .f32) :
    k0_pay6 (F := F) (win0_0.fill (grid0.coords t) d0 g0) (win0_1.fill (grid0.coords t) d1 g1) v
      = k0_pay6 (win0_0.fill (grid0.coords t) d0' g0) (win0_1.fill (grid0.coords t) d1' g1) v := by
  unfold k0_pay6
  dsimp only
  rw [pay5_fill t h7 d0 d0' g0, maskE_fill t h7 d1 d1' g1]

theorem pay7_fill (t : Fin cfg0.N) (h7 : 7 ≤ t.val) (d0 d0' : S64x12800.Idx → Elt F .f32)
    (g0 : (win0_0.xblock (grid0.coords t)).Idx → Elt F .f32) (d1 d1' : S12800x128.Idx → Elt F .f32)
    (g1 : (win0_1.xblock (grid0.coords t)).Idx → Elt F .f32) (v : Vec F S64x128 .f32) :
    k0_pay7 (F := F) (win0_0.fill (grid0.coords t) d0 g0) (win0_1.fill (grid0.coords t) d1 g1) v
      = k0_pay7 (win0_0.fill (grid0.coords t) d0' g0) (win0_1.fill (grid0.coords t) d1' g1) v := by
  unfold k0_pay7
  dsimp only
  rw [pay6_fill t h7 d0 d0' g0 d1 d1' g1]

/-- nor the last block's own result. -/
theorem pay8_fill (t : Fin cfg0.N) (h7 : 7 ≤ t.val) (d0 d0' : S64x12800.Idx → Elt F .f32)
    (g0 : (win0_0.xblock (grid0.coords t)).Idx → Elt F .f32) (d1 d1' : S12800x128.Idx → Elt F .f32)
    (g1 : (win0_1.xblock (grid0.coords t)).Idx → Elt F .f32) (v : Vec F S64x128 .f32) :
    k0_pay8 (F := F) (win0_0.fill (grid0.coords t) d0 g0) (win0_1.fill (grid0.coords t) d1 g1) v
      = k0_pay8 (win0_0.fill (grid0.coords t) d0' g0) (win0_1.fill (grid0.coords t) d1' g1) v := by
  unfold k0_pay8
  dsimp only
  rw [pay6_fill t h7 d0 d0' g0 d1 d1' g1, pay5_fill t h7 d0 d0' g0]

end Cert.KernelIdeal.Hand

end
-- ==== Proof.ValPay.lean ====
import proofs.«131046_g35527969473089_cont_8to1_b_1767_21_alg».proof.Proof.Data
import proofs.«131046_g35527969473089_cont_8to1_b_1767_21_alg».proof.Proof.Mask
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! The body's payloads read at an index, on the extended reals: a change of format is the identity, and each matrix
    product into the zero accumulator is the plain sum of products over its one contracted axis. -/

theorem d1_lhs0 (i : S64x128.Idx) (q : dot_S64x12800_S12800x128_S64x128_1_0_0_1_n_n.contr.Idx) : (dot_S64x12800_S12800x128_S64x128_1_0_0_1_n_n.lhsIdx i q 0).val = (i 0).val := by
  unfold DotDims.lhsIdx
  rw [dif_neg (show ¬(0 : Fin S64x12800.rank) ∈ dot_S64x12800_S12800x128_S64x128_1_0_0_1_n_n.lhsBatch by decide), dif_pos (show (0 : Fin S64x12800.rank) ∈ dot_S64x12800_S12800x128_S64x128_1_0_0_1_n_n.lhsNonContracting by decide)]
  rfl
theorem d1_lhs1 (i : S64x128.Idx) (q : dot_S64x12800_S12800x128_S64x128_1_0_0_1_n_n.contr.Idx) : (dot_S64x12800_S12800x128_S64x128_1_0_0_1_n_n.lhsIdx i q 1).val = (q ⟨0, by decide⟩).val :=
  dot_S64x12800_S12800x128_S64x128_1_0_0_1_n_n.lhsIdx_val_of_single rfl i q
theorem d1_rhs0 (i : S64x128.Idx) (q : dot_S64x12800_S12800x128_S64x128_1_0_0_1_n_n.contr.Idx) : (dot_S64x12800_S12800x128_S64x128_1_0_0_1_n_n.rhsIdx i q 0).val = (q ⟨0, by decide⟩).val :=
  dot_S64x12800_S12800x128_S64x128_1_0_0_1_n_n.rhsIdx_val_of_single rfl i q
theorem d1_rhs1 (i : S64x128.Idx) (q : dot_S64x12800_S12800x128_S64x128_1_0_0_1_n_n.contr.Idx) : (dot_S64x12800_S12800x128_S64x128_1_0_0_1_n_n.rhsIdx i q 1).val = (i 1).val := by
  unfold DotDims.rhsIdx
  rw [dif_neg (show ¬(1 : Fin S12800x128.rank) ∈ dot_S64x12800_S12800x128_S64x128_1_0_0_1_n_n.rhsBatch by decide), dif_pos (show (1 : Fin S12800x128.rank) ∈ dot_S64x12800_S12800x128_S64x128_1_0_0_1_n_n.rhsNonContracting by decide)]
  rfl

/-- The product of a 64 × 12800 block with a 12800 × 128 block, at (h, d): the sum over the 12800 shared rows. -/
theorem dot1_apply {φ₁ φ₂ : FTy} (X : FVec Ideal S64x12800 φ₁) (Y : FVec Ideal S12800x128 φ₂) (h : Fin 64) (d : Fin 128) :
    FloatOps.matmul dot_S64x12800_S12800x128_S64x128_1_0_0_1_n_n none X Y (constant S64x128 .f32 0x00000000#32) (ix2 h d)
      = ∑ r : Fin 12800, X (ix2 h r) * Y (ix2 r d) := by
  rw [Ideal.matmul_constant_zero_apply, ← Equiv.sum_comp (contrEquiv1 dot_S64x12800_S12800x128_S64x128_1_0_0_1_n_n 12800 rfl rfl).symm]
  refine Finset.sum_congr rfl fun k _ => ?_
  have hk := contrEquiv1_symm_val dot_S64x12800_S12800x128_S64x128_1_0_0_1_n_n 12800 rfl rfl k
  have el : dot_S64x12800_S12800x128_S64x128_1_0_0_1_n_n.lhsIdx (ix2 h d) ((contrEquiv1 dot_S64x12800_S12800x128_S64x128_1_0_0_1_n_n 12800 rfl rfl).symm k) = ix2 h k := funext fun a => Fin.ext (by
    match a with
    | ⟨0, _⟩ => exact d1_lhs0 _ _
    | ⟨1, _⟩ => exact (d1_lhs1 _ _).trans hk)
  have er : dot_S64x12800_S12800x128_S64x128_1_0_0_1_n_n.rhsIdx (ix2 h d) ((contrEquiv1 dot_S64x12800_S12800x128_S64x128_1_0_0_1_n_n 12800 rfl rfl).symm k) = ix2 k d := funext fun a => Fin.ext (by
    match a with
    | ⟨0, _⟩ => exact (d1_rhs0 _ _).trans hk
    | ⟨1, _⟩ => exact d1_rhs1 _ _)
  rw [el, er]

theorem d2_lhs0 (i : S12800x128.Idx) (q : dot_S64x12800_S64x128_S12800x128_0_0_1_1_n_n.contr.Idx) : (dot_S64x12800_S64x128_S12800x128_0_0_1_1_n_n.lhsIdx i q 0).val = (q ⟨0, by decide⟩).val :=
  dot_S64x12800_S64x128_S12800x128_0_0_1_1_n_n.lhsIdx_val_of_single rfl i q
theorem d2_lhs1 (i : S12800x128.Idx) (q : dot_S64x12800_S64x128_S12800x128_0_0_1_1_n_n.contr.Idx) : (dot_S64x12800_S64x128_S12800x128_0_0_1_1_n_n.lhsIdx i q 1).val = (i 0).val := by
  unfold DotDims.lhsIdx
  rw [dif_neg (show ¬(1 : Fin S64x12800.rank) ∈ dot_S64x12800_S64x128_S12800x128_0_0_1_1_n_n.lhsBatch by decide), dif_pos (show (1 : Fin S64x12800.rank) ∈ dot_S64x12800_S64x128_S12800x128_0_0_1_1_n_n.lhsNonContracting by decide)]
  rfl
theorem d2_rhs0 (i : S12800x128.Idx) (q : dot_S64x12800_S64x128_S12800x128_0_0_1_1_n_n.contr.Idx) : (dot_S64x12800_S64x128_S12800x128_0_0_1_1_n_n.rhsIdx i q 0).val = (q ⟨0, by decide⟩).val :=
  dot_S64x12800_S64x128_S12800x128_0_0_1_1_n_n.rhsIdx_val_of_single rfl i q
theorem d2_rhs1 (i : S12800x128.Idx) (q : dot_S64x12800_S64x128_S12800x128_0_0_1_1_n_n.contr.Idx) : (dot_S64x12800_S64x128_S12800x128_0_0_1_1_n_n.rhsIdx i q 1).val = (i 1).val := by
  unfold DotDims.rhsIdx
  rw [dif_neg (show ¬(1 : Fin S64x128.rank) ∈ dot_S64x12800_S64x128_S12800x128_0_0_1_1_n_n.rhsBatch by decide), dif_pos (show (1 : Fin S64x128.rank) ∈ dot_S64x12800_S64x128_S12800x128_0_0_1_1_n_n.rhsNonContracting by decide)]
  rfl

/-- The product of the transpose of a 64 × 12800 block with a 64 × 128 block, at (r, d): the sum over the 64 shared rows. -/
theorem dot2_apply {φ₁ φ₂ : FTy} (X : FVec Ideal S64x12800 φ₁) (Y : FVec Ideal S64x128 φ₂) (r : Fin 12800) (d : Fin 128) :
    FloatOps.matmul dot_S64x12800_S64x128_S12800x128_0_0_1_1_n_n none X Y (constant S12800x128 .f32 0x00000000#32) (ix2 r d)
      = ∑ h : Fin 64, X (ix2 h r) * Y (ix2 h d) := by
  rw [Ideal.matmul_constant_zero_apply, ← Equiv.sum_comp (contrEquiv1 dot_S64x12800_S64x128_S12800x128_0_0_1_1_n_n 64 rfl rfl).symm]
  refine Finset.sum_congr rfl fun k _ => ?_
  have hk := contrEquiv1_symm_val dot_S64x12800_S64x128_S12800x128_0_0_1_1_n_n 64 rfl rfl k
  have el : dot_S64x12800_S64x128_S12800x128_0_0_1_1_n_n.lhsIdx (ix2 r d) ((contrEquiv1 dot_S64x12800_S64x128_S12800x128_0_0_1_1_n_n 64 rfl rfl).symm k) = ix2 k r := funext fun a => Fin.ext (by
    match a with
    | ⟨0, _⟩ => exact (d2_lhs0 _ _).trans hk
    | ⟨1, _⟩ => exact d2_lhs1 _ _)
  have er : dot_S64x12800_S64x128_S12800x128_0_0_1_1_n_n.rhsIdx (ix2 r d) ((contrEquiv1 dot_S64x12800_S64x128_S12800x128_0_0_1_1_n_n 64 rfl rfl).symm k) = ix2 k d := funext fun a => Fin.ext (by
    match a with
    | ⟨0, _⟩ => exact (d2_rhs0 _ _).trans hk
    | ⟨1, _⟩ => exact d2_rhs1 _ _)
  rw [el, er]

/-- An accumulate step adds, at (h, d), the sum over the block's 12800 rows of the products. -/
theorem pay4_apply (X0 : Vec Ideal S64x12800 .f32) (X1 : Vec Ideal S12800x128 .f32) (L : Vec Ideal S64x128 .f32) (h : Fin 64) (d : Fin 128) :
    k0_pay4 (F := Ideal) X0 X1 L (ix2 h d) = L (ix2 h d) + ∑ r : Fin 12800, X0 (ix2 h r) * X1 (ix2 r d) := by
  unfold k0_pay4 k0_pay2
  dsimp only
  rw [shapeCast_self, shapeCast_self]
  simp only [addf, matmul]
  rw [dot1_apply]
  rfl

/-- The zeroed accumulator is zero. -/
theorem pay1_apply (j : S64x128.Idx) : k0_pay1 (F := Ideal) j = 0 := by
  unfold k0_pay1
  try dsimp only
  rw [shapeCast_self]
  exact Ideal.ofBits_zero_f32

theorem zero_bf16 : FloatOps.ofBits (F := Ideal) .bf16 0#16 = 0 := IdealRules.sign_bit.ideal_zero .bf16

/-- The masked rounded adjacency block: the block's entry in columns below 10400, zero past them. -/
theorem pay5_apply (X0 : Vec Ideal S64x12800 .f32) (h : Fin 64) (r : Fin 12800) :
    k0_pay5 (F := Ideal) X0 (ix2 h r) = if r.val < 10400 then X0 (ix2 h r) else 0 := by
  unfold k0_pay5
  dsimp only
  simp only [select, Scalar.select, truncf, cmpi, iota, broadcast, List.foldl_cons, List.foldl_nil, Nat.zero_mul, Nat.zero_add]
  rw [shapeCast_self]
  show (if IntOp.cmpi .slt (BitVec.ofNat 32 r.val) 10400#32 = 1 then _ else _) = _
  by_cases hlt : r.val < 10400
  · have hc : IntOp.cmpi .slt (BitVec.ofNat 32 r.val) 10400#32 = 1 := (slt_iff _ r.isLt).mpr hlt
    rw [if_pos hc, if_pos hlt]; rfl
  · have hc : ¬ (IntOp.cmpi .slt (BitVec.ofNat 32 r.val) 10400#32 = 1) := fun h => hlt ((slt_iff _ r.isLt).mp h)
    rw [if_neg hc, if_neg hlt]; exact zero_bf16

/-- The masked rounded embeddings block: the block's entry in rows below 10400, zero past them. -/
theorem maskE_apply (X1 : Vec Ideal S12800x128 .f32) (r : Fin 12800) (d : Fin 128) :
    select (cmpi .slt (iota .tc S12800x128 32 [0] iota_S12800x128_d0_w32) (broadcast S12800x128 (10400#32 : BitVec 32)))
        (truncf .bf16 X1 bitsLt_bf16_f32) (broadcast S12800x128 (Scalar.ofBits (F := Ideal) .bf16 0x0000#16)) (ix2 r d)
      = if r.val < 10400 then X1 (ix2 r d) else 0 := by
  simp only [select, Scalar.select, truncf, cmpi, iota, broadcast, List.foldl_cons, List.foldl_nil, Nat.zero_mul, Nat.zero_add]
  show (if IntOp.cmpi .slt (BitVec.ofNat 32 r.val) 10400#32 = 1 then _ else _) = _
  by_cases hlt : r.val < 10400
  · have hc : IntOp.cmpi .slt (BitVec.ofNat 32 r.val) 10400#32 = 1 := (slt_iff _ r.isLt).mpr hlt
    rw [if_pos hc, if_pos hlt]; rfl
  · have hc : ¬ (IntOp.cmpi .slt (BitVec.ofNat 32 r.val) 10400#32 = 1) := fun h => hlt ((slt_iff _ r.isLt).mp h)
    rw [if_neg hc, if_neg hlt]; exact zero_bf16

/-- The last accumulate step adds, at (h, d), the sum over the block's rows below 10400 of the products (the
    rows past them contribute the product of two zeros). -/
theorem pay6_apply (X0 : Vec Ideal S64x12800 .f32) (X1 : Vec Ideal S12800x128 .f32) (L : Vec Ideal S64x128 .f32) (h : Fin 64) (d : Fin 128) :
    k0_pay6 (F := Ideal) X0 X1 L (ix2 h d)
      = L (ix2 h d) + ∑ r : Fin 12800, (if r.val < 10400 then X0 (ix2 h r) else 0) * (if r.val < 10400 then X1 (ix2 r d) else 0) := by
  unfold k0_pay6
  dsimp only
  simp only [addf, matmul]
  rw [dot1_apply]
  refine congrArg (L (ix2 h d) + ·) (Finset.sum_congr rfl fun r _ => ?_)
  rw [pay5_apply, maskE_apply]

theorem pay7_apply (X0 : Vec Ideal S64x12800 .f32) (X1 : Vec Ideal S12800x128 .f32) (L : Vec Ideal S64x128 .f32) :
    k0_pay7 (F := Ideal) X0 X1 L = k0_pay6 X0 X1 L := by
  unfold k0_pay7
  try dsimp only
  rw [shapeCast_self]

/-- The last block's own result, at (r, d): the sum over the 64 rows of the masked block's column r times the
    complete accumulator. -/
theorem pay8_apply (X0 : Vec Ideal S64x12800 .f32) (X1 : Vec Ideal S12800x128 .f32) (L : Vec Ideal S64x128 .f32) (r : Fin 12800) (d : Fin 128) :
    k0_pay8 (F := Ideal) X0 X1 L (ix2 r d)
      = ∑ h : Fin 64, (if r.val < 10400 then X0 (ix2 h r) else 0) * k0_pay6 X0 X1 L (ix2 h d) := by
  unfold k0_pay8
  try dsimp only
  simp only [matmul]
  rw [dot2_apply]
  refine Finset.sum_congr rfl fun h _ => ?_
  rw [pay5_apply]
  rfl

/-- A stashed block's result, at (r, d): the sum over the 64 rows of the block's column r times the accumulator. -/
theorem pay9_apply (A : Vec Ideal S64x12800 .f32) (L : Vec Ideal S64x128 .f32) (r : Fin 12800) (d : Fin 128) :
    k0_pay9 (F := Ideal) (k0_pay3 A) L (ix2 r d) = ∑ h : Fin 64, A (ix2 h r) * L (ix2 h d) := by
  unfold k0_pay9 k0_pay3 k0_pay2
  try dsimp only
  rw [shapeCast_shapeCast, shapeCast_self]
  simp only [matmul]
  rw [dot2_apply]
  rfl

end Cert.KernelIdeal.Hand

end
-- ==== Proof.ValBlocks.lean ====
import proofs.«131046_g35527969473089_cont_8to1_b_1767_21_alg».proof.Proof.Data
import proofs.«131046_g35527969473089_cont_8to1_b_1767_21_alg».proof.Proof.Sched
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! The blocks read at an index: block `k` of the transposed adjacency is its columns 12800·k on, block `k` of
    the embeddings its rows 12800·k on, and the result's block at step `t` is rows 12800·7 on up to step 7 and
    rows 12800·(t - 8) on afterwards. -/

theorem idx_0 : ∀ t : Fin cfg0.N, win0_0.index t (0 : Fin 2) = 0 ∧ win0_0.index t (1 : Fin 2) = min t.val 7 :=
  (by decide +kernel : ∀ t : Fin grid0.N, win0_0.index t (0 : Fin 2) = 0 ∧ win0_0.index t (1 : Fin 2) = min t.val 7)
theorem idx_1 : ∀ t : Fin cfg0.N, win0_1.index t (0 : Fin 2) = min t.val 7 ∧ win0_1.index t (1 : Fin 2) = 0 :=
  (by decide +kernel : ∀ t : Fin grid0.N, win0_1.index t (0 : Fin 2) = min t.val 7 ∧ win0_1.index t (1 : Fin 2) = 0)
theorem idx_2 : ∀ t : Fin cfg0.N, win0_2.index t (0 : Fin 2) = (if t.val < 8 then 7 else t.val - 8) ∧ win0_2.index t (1 : Fin 2) = 0 :=
  (by decide +kernel : ∀ t : Fin grid0.N, win0_2.index t (0 : Fin 2) = (if t.val < 8 then 7 else t.val - 8) ∧ win0_2.index t (1 : Fin 2) = 0)
theorem xs_0 : ∀ t : Fin cfg0.N, (cfg0.win 0).xsize (grid0.coords t) = ![64, if t.val < 7 then 12800 else 10400] :=
  (by decide +kernel : ∀ t : Fin grid0.N, (cfg0.win 0).xsize (grid0.coords t) = ![64, if t.val < 7 then 12800 else 10400])
theorem xs_1 : ∀ t : Fin cfg0.N, (cfg0.win 1).xsize (grid0.coords t) = ![if t.val < 7 then 12800 else 10400, 128] :=
  (by decide +kernel : ∀ t : Fin grid0.N, (cfg0.win 1).xsize (grid0.coords t) = ![if t.val < 7 then 12800 else 10400, 128])
theorem xs_2 : ∀ t : Fin cfg0.N, (cfg0.win 2).xsize (grid0.coords t) = ![if t.val < 8 then 10400 else 12800, 128] :=
  (by decide +kernel : ∀ t : Fin grid0.N, (cfg0.win 2).xsize (grid0.coords t) = ![if t.val < 8 then 10400 else 12800, 128])

theorem fillA_read (c : Dev nD) (t : Fin cfg0.N) (ht : t.val < 8) (d : S64x12800.Idx → Elt F .f32) (h : Fin 64) (r : Fin 12800)
    (hr : 12800 * t.val + r.val < 100000) :
    win0_0.fill (grid0.coords t) d (iblk m c 0 t) (ix2 h r) = V m c main_v0 (ix2 h ⟨12800 * t.val + r.val, hr⟩) := by
  have hm : win0_0.moved (grid0.coords t) (ix2 h r) = true := (win0_0.moved_iff _ _).mpr fun a => by
    have hx : win0_0.xsize (grid0.coords t) a = (![64, if t.val < 7 then 12800 else 10400] : Fin 2 → Nat) a := congrFun (xs_0 t) a
    rw [hx]
    match a with
    | ⟨0, _⟩ => exact h.isLt
    | ⟨1, _⟩ => show r.val < if t.val < 7 then 12800 else 10400; have := r.isLt; split <;> omega
  unfold Window.fill; rw [dif_pos hm]
  unfold iblk
  show V m c main_v0 ((win0_0.blk t).view.emb _) = _
  congr 1
  funext a; apply Fin.ext
  match a with
  | ⟨0, _⟩ => show win0_0.index t (0 : Fin 2) * 64 + 1 * h.val = h.val; rw [(idx_0 t).1]; omega
  | ⟨1, _⟩ => show win0_0.index t (1 : Fin 2) * 12800 + 1 * r.val = 12800 * t.val + r.val; rw [(idx_0 t).2]; omega

theorem fillE_read (c : Dev nD) (t : Fin cfg0.N) (ht : t.val < 8) (d : S12800x128.Idx → Elt F .f32) (r : Fin 12800) (j : Fin 128)
    (hr : 12800 * t.val + r.val < 100000) :
    win0_1.fill (grid0.coords t) d (iblk m c 1 t) (ix2 r j) = V m c main_arg1 (ix2 ⟨12800 * t.val + r.val, hr⟩ j) := by
  have hm : win0_1.moved (grid0.coords t) (ix2 r j) = true := (win0_1.moved_iff _ _).mpr fun a => by
    have hx : win0_1.xsize (grid0.coords t) a = (![if t.val < 7 then 12800 else 10400, 128] : Fin 2 → Nat) a := congrFun (xs_1 t) a
    rw [hx]
    match a with
    | ⟨0, _⟩ => show r.val < if t.val < 7 then 12800 else 10400; have := r.isLt; split <;> omega
    | ⟨1, _⟩ => exact j.isLt
  unfold Window.fill; rw [dif_pos hm]
  unfold iblk
  show V m c main_arg1 ((win0_1.blk t).view.emb _) = _
  congr 1
  funext a; apply Fin.ext
  match a with
  | ⟨0, _⟩ => show win0_1.index t (0 : Fin 2) * 12800 + 1 * r.val = 12800 * t.val + r.val; rw [(idx_1 t).1]; omega
  | ⟨1, _⟩ => show win0_1.index t (1 : Fin 2) * 128 + 1 * j.val = j.val; rw [(idx_1 t).2]; omega

/-- Block `k` (k ≤ 7) of the transposed adjacency, at (h, r) inside the array: column 12800·k + r. -/
theorem blkA_apply (c : Dev nD) (k : ℕ) (hk : k < 8) (h : Fin 64) (r : Fin 12800) (hr : 12800 * k + r.val < 100000) :
    blkA m c k (ix2 h r) = V m c main_v0 (ix2 h ⟨12800 * k + r.val, hr⟩) :=
  (congrFun (blkA_eq m c ⟨k, by have := N_0; show k < grid0.N; omega⟩ hk) (ix2 h r)).trans
    (fillA_read m c ⟨k, by have := N_0; show k < grid0.N; omega⟩ hk _ h r hr)
/-- Block `k` (k ≤ 7) of the embeddings, at (r, j) inside the array: row 12800·k + r. -/
theorem blkE_apply (c : Dev nD) (k : ℕ) (hk : k < 8) (r : Fin 12800) (j : Fin 128) (hr : 12800 * k + r.val < 100000) :
    blkE m c k (ix2 r j) = V m c main_arg1 (ix2 ⟨12800 * k + r.val, hr⟩ j) :=
  (congrFun (blkE_eq m c ⟨k, by have := N_0; show k < grid0.N; omega⟩ hk) (ix2 r j)).trans
    (fillE_read m c ⟨k, by have := N_0; show k < grid0.N; omega⟩ hk _ r j hr)

end Cert.KernelIdeal.Hand

end
-- ==== Proof.ValLat.lean ====
import proofs.«131046_g35527969473089_cont_8to1_b_1767_21_alg».proof.Proof.ValPay
import proofs.«131046_g35527969473089_cont_8to1_b_1767_21_alg».proof.Proof.ValBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

/-! The accumulator on the extended reals: after the last accumulate step it holds, at (h, d), the sum over all
    100000 rows n of adjT[h, n] · embeds[n, d] — the seven whole blocks and the 10400 rows of the last one laid
    end to end (regrouping a finite sum needs no finiteness of the terms). -/

/-- Row `n` of the transposed adjacency at `h`, and of the embeddings at `d`, as functions of a natural number
    (zero past the arrays' end: never summed). -/
def aT (c : Dev nD) (h : Fin 64) (n : ℕ) : EReal := if hn : n < 100000 then V m c main_v0 (ix2 h ⟨n, hn⟩) else 0
def eM (c : Dev nD) (n : ℕ) (d : Fin 128) : EReal := if hn : n < 100000 then V m c main_arg1 (ix2 ⟨n, hn⟩ d) else 0

theorem blk_prod (c : Dev nD) (k : ℕ) (hk : k < 8) (h : Fin 64) (d : Fin 128) (r : Fin 12800) (hr : 12800 * k + r.val < 100000) :
    blkA m c k (ix2 h r) * blkE m c k (ix2 r d) = aT m c h (12800 * k + r.val) * eM m c (12800 * k + r.val) d := by
  rw [blkA_apply m c k hk h r hr, blkE_apply m c k hk r d hr, aT, eM, dif_pos hr, dif_pos hr]

/-- After accumulate step `k` ≤ 6: the sum over the first 12800·(k+1) rows. -/
theorem latAfter_lo (c : Dev nD) (h : Fin 64) (d : Fin 128) : ∀ k, k < 7 →
    latAfter m c k (ix2 h d) = ∑ n ∈ Finset.range (12800 * (k + 1)), aT m c h n * eM m c n d
  | 0, _ => by
    rw [show latAfter m c 0 = k0_pay4 (blkA m c 0) (blkE m c 0) (k0_pay1 (F := Ideal)) from rfl, pay4_apply, pay1_apply, zero_add,
      ← Fin.sum_univ_eq_sum_range (fun n => aT m c h n * eM m c n d) (12800 * (0 + 1))]
    refine Finset.sum_congr rfl fun r _ => ?_
    have hr : 12800 * 0 + r.val < 100000 := by have := r.isLt; omega
    rw [blk_prod m c 0 (by omega) h d r hr]
    simp only [Nat.mul_zero, Nat.zero_add]
  | k + 1, hk => by
    rw [latAfter_acc m c k hk, pay4_apply, latAfter_lo c h d k (by omega),
      show 12800 * (k + 1 + 1) = 12800 * (k + 1) + 12800 from by ring, Finset.sum_range_add,
      ← Fin.sum_univ_eq_sum_range (fun x => aT m c h (12800 * (k + 1) + x) * eM m c (12800 * (k + 1) + x) d) 12800]
    refine congrArg (_ + ·) (Finset.sum_congr rfl fun r _ => ?_)
    have hr : 12800 * (k + 1) + r.val < 100000 := by have := r.isLt; omega
    exact blk_prod m c (k + 1) (by omega) h d r hr

/-- The complete accumulator: the sum over all 100000 rows. -/
theorem lat_full (c : Dev nD) (h : Fin 64) (d : Fin 128) :
    latAfter m c 7 (ix2 h d) = ∑ n ∈ Finset.range 100000, aT m c h n * eM m c n d := by
  rw [latAfter_tail, pay7_apply, pay6_apply, latAfter_lo m c h d 6 (by omega)]
  have e1 : ∑ r : Fin 12800, (if r.val < 10400 then blkA m c 7 (ix2 h r) else 0) * (if r.val < 10400 then blkE m c 7 (ix2 r d) else 0)
      = ∑ r ∈ Finset.range 12800, (if r < 10400 then aT m c h (89600 + r) * eM m c (89600 + r) d else 0) := by
    rw [← Fin.sum_univ_eq_sum_range (fun r => if r < 10400 then aT m c h (89600 + r) * eM m c (89600 + r) d else 0) 12800]
    refine Finset.sum_congr rfl fun r _ => ?_
    by_cases hlt : r.val < 10400
    · rw [if_pos hlt, if_pos hlt, if_pos hlt]
      exact blk_prod m c 7 (by omega) h d r (by omega)
    · rw [if_neg hlt, if_neg hlt, if_neg hlt, zero_mul]
  have e2 : ∑ r ∈ Finset.range 12800, (if r < 10400 then aT m c h (89600 + r) * eM m c (89600 + r) d else 0)
      = ∑ r ∈ Finset.range 10400, aT m c h (89600 + r) * eM m c (89600 + r) d := by
    rw [show (12800 : ℕ) = 10400 + 2400 from rfl, Finset.sum_range_add]
    rw [Finset.sum_eq_zero (s := Finset.range 2400) (fun r _ => if_neg (by omega)), add_zero]
    exact Finset.sum_congr rfl fun r hr => if_pos (Finset.mem_range.mp hr)
  rw [e1, e2, show (100000 : ℕ) = 12800 * (6 + 1) + 10400 from rfl, Finset.sum_range_add]

end Cert.KernelIdeal.Hand

end
-- ==== Proof.RunEmit.lean ====
import proofs.«131046_g35527969473089_cont_8to1_b_1767_21_alg».proof.Proof.Conds
import proofs.«131046_g35527969473089_cont_8to1_b_1767_21_alg».proof.Proof.LibStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at an emit step (from step 8 on): it reads one slab of the stash and the accumulator and stores the result block whole; the stash and the accumulator are unchanged. -/
theorem run_emit (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : ¬cond1 i) (hc2 : ¬cond2 i) (hc3 : ¬cond3 i) (hc4 : cond4 i)
    (xs4 : Vec F S7x64x12800 .bf16) (xs5 : Vec F S64x128 .f32) (E : Set ℕ) (K : PUnit → sProp 𝕄) :
    iprop((∃ d, owns (c : Thread nD τ) arg3 fullShare d) ∗ owns (c : Thread nD τ) arg4 fullShare xs4 ∗ owns (c : Thread nD τ) arg5 fullShare xs5
        ∗ (iprop(owns (c : Thread nD τ) arg3 fullShare (k0_pay9 (View.ld xs4 (Rect.unit (s := S7x64x12800) (k0_off2 i) S1x64x12800.size (k0_off2_inb i hc4))) xs5) ∗ owns (c : Thread nD τ) arg4 fullShare xs4 ∗ owns (c : Thread nD τ) arg5 fullShare xs5) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%d3, %f3, -, H3⟩, ⟨%f4, %hf4, H4⟩, ⟨%f5, %hf5, H5⟩, Hk⟩
  obtain rfl := harg4.eq_unread hf4; obtain rfl := harg5.eq_unread hf5
  sl_exec (disch := first | exact hc1 | exact hc2 | exact hc3 | exact hc4)
  sl_step
  iapply Hk
  simp only [View.readAt_eq_ld, harg1.read_unread, harg2.read_unread, harg4.read_unread, harg5.read_unread, View.ld_unit_zero (S := S64x128) hz, View.ld_unit_zero (S := S64x12800) hz, View.ld_unit_zero (S := S12800x128) hz]
  isplitl [H3]
  · have h := fun w f => owns_of_whole_store (Val := Elt F) (Ix := Unit) (Name := ℕ) (U := UR sig nD τ) (Lvl := ℕ) (c : Thread nD τ) arg3 fullShare hz inb_S12800x128_S12800x128_0_0 w f []
    unfold owns at h
    iapply h; iexact H3
  isplitl [H4]
  · iexists _; isplitr; · ipureintro; exact harg4.read_unread _
    iexact H4
  · iexists _; isplitr; · ipureintro; exact harg5.read_unread _
    iexact H5

end Cert.KernelIdeal.Hand

end
-- ==== Proof.RunAcc.lean ====
import proofs.«131046_g35527969473089_cont_8to1_b_1767_21_alg».proof.Proof.Conds
import proofs.«131046_g35527969473089_cont_8to1_b_1767_21_alg».proof.Proof.LibStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at an accumulate step after the first (steps 1 to 6): the rounded block of the transposed adjacency is stored into the step's slab of the stash, and the accumulator gains the product of the two rounded blocks. -/
theorem run_acc (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : ¬cond1 i) (hc2 : cond2 i) (hc3 : ¬cond3 i) (hc4 : ¬cond4 i)
    (X0 : Vec F S64x12800 .f32) (X1 : Vec F S12800x128 .f32) (xs4 : Vec F S7x64x12800 .bf16) (xs5 : Vec F S64x128 .f32) (E : Set ℕ) (K : PUnit → sProp 𝕄) :
    iprop(owns (c : Thread nD τ) arg1 fullShare X0 ∗ owns (c : Thread nD τ) arg2 fullShare X1 ∗ owns (c : Thread nD τ) arg4 fullShare xs4 ∗ owns (c : Thread nD τ) arg5 fullShare xs5
        ∗ (iprop(owns (c : Thread nD τ) arg1 fullShare X0 ∗ owns (c : Thread nD τ) arg2 fullShare X1 ∗ owns (c : Thread nD τ) arg4 fullShare ((Rect.unit (s := S7x64x12800) (k0_off1 i) S1x64x12800.size (k0_off1_inb i hc2)).overlay xs4 (k0_pay3 X0)) ∗ owns (c : Thread nD τ) arg5 fullShare (k0_pay4 X0 X1 xs5)) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%f0, %hf0, H0⟩, ⟨%f1, %hf1, H1⟩, ⟨%f4, %hf4, H4⟩, ⟨%f5, %hf5, H5⟩, Hk⟩
  obtain rfl := harg1.eq_unread hf0; obtain rfl := harg2.eq_unread hf1; obtain rfl := harg4.eq_unread hf4; obtain rfl := harg5.eq_unread hf5
  sl_exec (disch := first | exact hc1 | exact hc2 | exact hc3 | exact hc4)
  sl_step
  iapply Hk
  simp only [View.readAt_eq_ld, harg1.read_unread, harg2.read_unread, harg4.read_unread, harg5.read_unread, View.ld_unit_zero (S := S64x128) hz, View.ld_unit_zero (S := S64x12800) hz, View.ld_unit_zero (S := S12800x128) hz]
  isplitl [H0]
  · iexists _; isplitr; · ipureintro; exact harg1.read_unread _
    iexact H0
  isplitl [H1]
  · iexists _; isplitr; · ipureintro; exact harg2.read_unread _
    iexact H1
  isplitl [H4]
  · have h := owns_of_single_store (Val := Elt F) (Ix := Unit) (Name := ℕ) (U := UR sig nD τ) (Lvl := ℕ) (c : Thread nD τ) arg4 fullShare (Rect.unit (s := S7x64x12800) (k0_off1 i) S1x64x12800.size (k0_off1_inb i hc2)) (k0_pay3 X0) (harg4.unread xs4) xs4 (harg4.read_unread xs4)
    unfold owns at h
    iapply h; iexact H4
  · have h := fun w f => owns_of_whole_store (Val := Elt F) (Ix := Unit) (Name := ℕ) (U := UR sig nD τ) (Lvl := ℕ) (c : Thread nD τ) arg5 fullShare hz inb_S64x128_S64x128_0_0 w f []
    unfold owns at h
    iapply h; iexact H5

end Cert.KernelIdeal.Hand

end
-- ==== Proof.RunFirst.lean ====
import proofs.«131046_g35527969473089_cont_8to1_b_1767_21_alg».proof.Proof.Conds
import proofs.«131046_g35527969473089_cont_8to1_b_1767_21_alg».proof.Proof.LibStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at step 0: the accumulator is zeroed, then the step accumulates as the later ones do, from the zeroed accumulator. -/
theorem run_first (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : cond1 i) (hc2 : cond2 i) (hc3 : ¬cond3 i) (hc4 : ¬cond4 i)
    (X0 : Vec F S64x12800 .f32) (X1 : Vec F S12800x128 .f32) (xs4 : Vec F S7x64x12800 .bf16) (E : Set ℕ) (K : PUnit → sProp 𝕄) :
    iprop(owns (c : Thread nD τ) arg1 fullShare X0 ∗ owns (c : Thread nD τ) arg2 fullShare X1 ∗ owns (c : Thread nD τ) arg4 fullShare xs4 ∗ (∃ d, owns (c : Thread nD τ) arg5 fullShare d)
        ∗ (iprop(owns (c : Thread nD τ) arg1 fullShare X0 ∗ owns (c : Thread nD τ) arg2 fullShare X1 ∗ owns (c : Thread nD τ) arg4 fullShare ((Rect.unit (s := S7x64x12800) (k0_off1 i) S1x64x12800.size (k0_off1_inb i hc2)).overlay xs4 (k0_pay3 X0)) ∗ owns (c : Thread nD τ) arg5 fullShare (k0_pay4 X0 X1 (k0_pay1 (F := F)))) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%f0, %hf0, H0⟩, ⟨%f1, %hf1, H1⟩, ⟨%f4, %hf4, H4⟩, ⟨%d5, %f5, -, H5⟩, Hk⟩
  obtain rfl := harg1.eq_unread hf0; obtain rfl := harg2.eq_unread hf1; obtain rfl := harg4.eq_unread hf4
  sl_exec (disch := first | exact hc1 | exact hc2 | exact hc3 | exact hc4)
  sl_step
  iapply Hk
  have hv : run_first.sl.v21 (F := F) c arg5 = k0_pay1 (F := F) := by
    unfold run_first.sl.v21 run_first.sl.H5_1
    exact View.readCov_unit_zero arg5.view hz _ _
  rw [hv]
  simp only [View.readAt_eq_ld, harg1.read_unread, harg2.read_unread, harg4.read_unread, harg5.read_unread, View.ld_unit_zero (S := S64x128) hz, View.ld_unit_zero (S := S64x12800) hz, View.ld_unit_zero (S := S12800x128) hz]
  isplitl [H0]
  · iexists _; isplitr; · ipureintro; exact harg1.read_unread _
    iexact H0
  isplitl [H1]
  · iexists _; isplitr; · ipureintro; exact harg2.read_unread _
    iexact H1
  isplitl [H4]
  · have h := owns_of_single_store (Val := Elt F) (Ix := Unit) (Name := ℕ) (U := UR sig nD τ) (Lvl := ℕ) (c : Thread nD τ) arg4 fullShare (Rect.unit (s := S7x64x12800) (k0_off1 i) S1x64x12800.size (k0_off1_inb i hc2)) (k0_pay3 X0) (harg4.unread xs4) xs4 (harg4.read_unread xs4)
    unfold owns at h
    iapply h; iexact H4
  · have h := fun w f L => owns_of_whole_store (Val := Elt F) (Ix := Unit) (Name := ℕ) (U := UR sig nD τ) (Lvl := ℕ) (c : Thread nD τ) arg5 fullShare hz inb_S64x128_S64x128_0_0 w f L
    unfold owns at h
    iapply h; iexact H5

end Cert.KernelIdeal.Hand

end
-- ==== Proof.RunTail.lean ====
import proofs.«131046_g35527969473089_cont_8to1_b_1767_21_alg».proof.Proof.Conds
import proofs.«131046_g35527969473089_cont_8to1_b_1767_21_alg».proof.Proof.LibStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibStore

set_option maxHeartbeats 2000000 in
/-- The body at step 7, the ragged last block: both rounded blocks are masked to the rows inside the arrays, the accumulator gains their product and is complete, and the step's own result block is stored whole. -/
theorem run_tail (c : Dev nD) (i : grid0.Coords) (arg1 : Memref sig .tc .vmem S64x12800 .f32) (harg1 : arg1.IsWhole) (arg2 : Memref sig .tc .vmem S12800x128 .f32) (harg2 : arg2.IsWhole) (arg3 : Memref sig .tc .vmem S12800x128 .f32) (harg3 : arg3.IsWhole) (arg4 : Memref sig .tc .vmem S7x64x12800 .bf16) (harg4 : arg4.IsWhole) (arg5 : Memref sig .tc .vmem S64x128 .f32) (harg5 : arg5.IsWhole)
    (hc1 : ¬cond1 i) (hc2 : ¬cond2 i) (hc3 : cond3 i) (hc4 : ¬cond4 i)
    (X0 : Vec F S64x12800 .f32) (X1 : Vec F S12800x128 .f32) (xs5 : Vec F S64x128 .f32) (E : Set ℕ) (K : PUnit → sProp 𝕄) :
    iprop(owns (c : Thread nD τ) arg1 fullShare X0 ∗ owns (c : Thread nD τ) arg2 fullShare X1 ∗ (∃ d, owns (c : Thread nD τ) arg3 fullShare d) ∗ owns (c : Thread nD τ) arg5 fullShare xs5
        ∗ (iprop(owns (c : Thread nD τ) arg1 fullShare X0 ∗ owns (c : Thread nD τ) arg2 fullShare X1 ∗ owns (c : Thread nD τ) arg3 fullShare (k0_pay8 X0 X1 xs5) ∗ owns (c : Thread nD τ) arg5 fullShare (k0_pay7 X0 X1 xs5)) -∗ K ⟨⟩))
      ⊢ wp frame (wpE (defs₀ (F := F)) Variants.none c none) E (cc0__fused_kernel i arg1 harg1 arg2 harg2 arg3 harg3 arg4 harg4 arg5 harg5) K := by
  have hz : (![0, 0] : Fin 2 → Nat) = fun _ => 0 := funext fun a => by fin_cases a <;> rfl
  simp only [cc0__fused_kernel_eq_skeleton]; unfold cc0__fused_kernel_skel
  unfold owns
  iintro ⟨⟨%f0, %hf0, H0⟩, ⟨%f1, %hf1, H1⟩, ⟨%d3, %f3, -, H3⟩, ⟨%f5, %hf5, H5⟩, Hk⟩
  obtain rfl := harg1.eq_unread hf0; obtain rfl := harg2.eq_unread hf1; obtain rfl := harg5.eq_unread hf5
  sl_exec (disch := first | exact hc1 | exact hc2 | exact hc3 | exact hc4)
  sl_step
  iapply Hk
  simp only [View.readAt_eq_ld, harg1.read_unread, harg2.read_unread, harg5.read_unread, View.ld_unit_zero (S := S64x128) hz, View.ld_unit_zero (S := S64x12800) hz, View.ld_unit_zero (S := S12800x128) hz]
  isplitl [H0]
  · iexists _; isplitr; · ipureintro; exact harg1.read_unread _
    iexact H0
  isplitl [H1]
  · iexists _; isplitr; · ipureintro; exact harg2.read_unread _
    iexact H1
  isplitl [H3]
  · have h := fun w f => owns_of_whole_store (Val := Elt F) (Ix := Unit) (Name := ℕ) (U := UR sig nD τ) (Lvl := ℕ) (c : Thread nD τ) arg3 fullShare hz inb_S12800x128_S12800x128_0_0 w f []
    unfold owns at h
    iapply h; iexact H3
  · have h := fun w f => owns_of_whole_store (Val := Elt F) (Ix := Unit) (Name := ℕ) (U := UR sig nD τ) (Lvl := ℕ) (c : Thread nD τ) arg5 fullShare hz inb_S64x128_S64x128_0_0 w f []
    unfold owns at h
    iapply h; iexact H5

end Cert.KernelIdeal.Hand

end
-- ==== Proof.Before.lean ====
import proofs.«131046_g35527969473089_cont_8to1_b_1767_21_alg».proof.Proof.Data
import proofs.«131046_g35527969473089_cont_8to1_b_1767_21_alg».proof.Proof.Sched
import proofs.«131046_g35527969473089_cont_8to1_b_1767_21_alg».proof.Proof.Mask
import proofs.«131046_g35527969473089_cont_8to1_b_1767_21_alg».proof.Proof.RunEmit
import proofs.«131046_g35527969473089_cont_8to1_b_1767_21_alg».proof.Proof.RunAcc
import proofs.«131046_g35527969473089_cont_8to1_b_1767_21_alg».proof.Proof.RunFirst
import proofs.«131046_g35527969473089_cont_8to1_b_1767_21_alg».proof.Proof.RunTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## What the body finds in the input buffers -/

/-- Up to step 7 an input's buffer was just fetched: its block on the part inside the array, anything past it. -/
theorem before_0_lo (c : Dev nD) (t : Fin cfg0.N) (h : t.val < 8) (d) :
    (dats m 0 c).before 0 t d = win0_0.fill (grid0.coords t) d (iblk m c 0 t) := by
  rw [(dats m 0 c).before_fetched 0 t (fetch_0 t h)]; unfold Dat.fetched Dat.blockOf iblk; rw [A_eq]
theorem before_1_lo (c : Dev nD) (t : Fin cfg0.N) (h : t.val < 8) (d) :
    (dats m 0 c).before 1 t d = win0_1.fill (grid0.coords t) d (iblk m c 1 t) := by
  rw [(dats m 0 c).before_fetched 1 t (fetch_1 t h)]; unfold Dat.fetched Dat.blockOf iblk; rw [A_eq]

/-- Before step 7 no block is cut, so the buffer holds the block whatever was there. -/
theorem fill_0_lo (c : Dev nD) (t : Fin cfg0.N) (h : t.val < 7) (d) :
    win0_0.fill (grid0.coords t) d (iblk m c 0 t) = blkA m c t.val := by
  rw [blkA_eq m c t (by omega)]; exact Pipeline.fill_of_clip_none (cfg := cfg0) 0 _ (noclip_0 t h) _ _ _
theorem fill_1_lo (c : Dev nD) (t : Fin cfg0.N) (h : t.val < 7) (d) :
    win0_1.fill (grid0.coords t) d (iblk m c 1 t) = blkE m c t.val := by
  rw [blkE_eq m c t (by omega)]; exact Pipeline.fill_of_clip_none (cfg := cfg0) 1 _ (noclip_1 t h) _ _ _

theorem cut_blkA (c : Dev nD) (t : Fin cfg0.N) (h : t.val < 8) :
    win0_0.cut (grid0.coords t) (blkA m c t.val) = iblk m c 0 t := by
  rw [blkA_eq m c t h]; exact win0_0.cut_fill _ _ _
theorem cut_blkE (c : Dev nD) (t : Fin cfg0.N) (h : t.val < 8) :
    win0_1.cut (grid0.coords t) (blkE m c t.val) = iblk m c 1 t := by
  rw [blkE_eq m c t h]; exact win0_1.cut_fill _ _ _

/-- From step 8 on the inputs are not fetched again: each buffer still holds, on the part a transfer would move,
    what the step before left there — the last block. -/
theorem hold_0 (c : Dev nD) (t : Fin cfg0.N) (h : 8 ≤ t.val) (d) :
    ∃ d', (dats m 0 c).before 0 t d = win0_0.fill (grid0.coords t) d' (win0_0.cut (grid0.coords t) (blkA m c t.val)) := by
  refine ⟨(dats m 0 c).before 0 t d, ?_⟩
  symm
  apply Window.fill_congr_cut
  rw [(dats m 0 c).before_unfetched_in 0 rfl t (nofetch_0 t h) (fun _ => rfl)]
  unfold Dat.kept
  rw [after_0, blkA_hold m c t.val (by omega)]
  show win0_0.cut (grid0.coords t) (win0_0.fill (grid0.coords ⟨t.val - 1, _⟩) d (win0_0.cut (grid0.coords ⟨t.val - 1, _⟩) (blkA m c (t.val - 1)))) = _
  rw [blkA_hold m c (t.val - 1) (by omega)]
  funext j
  have hm : win0_0.moved (grid0.coords ⟨t.val - 1, Nat.lt_of_le_of_lt (Nat.sub_le _ _) t.isLt⟩) (win0_0.xinj (grid0.coords t) j) = true :=
    (win0_0.moved_iff _ _).mpr fun a => by
      have hx : win0_0.xsize (grid0.coords ⟨t.val - 1, Nat.lt_of_le_of_lt (Nat.sub_le _ _) t.isLt⟩) a = (![64, 10400] : Fin 2 → Nat) a :=
        congrFun (xsize_0 ⟨t.val - 1, Nat.lt_of_le_of_lt (Nat.sub_le _ _) t.isLt⟩ (by show 7 ≤ t.val - 1; omega)) a
      have hy : win0_0.xsize (grid0.coords t) a = (![64, 10400] : Fin 2 → Nat) a := congrFun (xsize_0 t (by omega)) a
      have hj : (j a).val < win0_0.xsize (grid0.coords t) a := (j a).isLt
      rw [hx]; rw [hy] at hj; exact hj
  show win0_0.fill _ d _ (win0_0.xinj (grid0.coords t) j) = _
  unfold Window.fill; rw [dif_pos hm]
theorem hold_1 (c : Dev nD) (t : Fin cfg0.N) (h : 8 ≤ t.val) (d) :
    ∃ d', (dats m 0 c).before 1 t d = win0_1.fill (grid0.coords t) d' (win0_1.cut (grid0.coords t) (blkE m c t.val)) := by
  refine ⟨(dats m 0 c).before 1 t d, ?_⟩
  symm
  apply Window.fill_congr_cut
  rw [(dats m 0 c).before_unfetched_in 1 rfl t (nofetch_1 t h) (fun _ => rfl)]
  unfold Dat.kept
  rw [after_1, blkE_hold m c t.val (by omega)]
  show win0_1.cut (grid0.coords t) (win0_1.fill (grid0.coords ⟨t.val - 1, _⟩) d (win0_1.cut (grid0.coords ⟨t.val - 1, _⟩) (blkE m c (t.val - 1)))) = _
  rw [blkE_hold m c (t.val - 1) (by omega)]
  funext j
  have hm : win0_1.moved (grid0.coords ⟨t.val - 1, Nat.lt_of_le_of_lt (Nat.sub_le _ _) t.isLt⟩) (win0_1.xinj (grid0.coords t) j) = true :=
    (win0_1.moved_iff _ _).mpr fun a => by
      have hx : win0_1.xsize (grid0.coords ⟨t.val - 1, Nat.lt_of_le_of_lt (Nat.sub_le _ _) t.isLt⟩) a = (![10400, 128] : Fin 2 → Nat) a :=
        congrFun (xsize_1 ⟨t.val - 1, Nat.lt_of_le_of_lt (Nat.sub_le _ _) t.isLt⟩ (by show 7 ≤ t.val - 1; omega)) a
      have hy : win0_1.xsize (grid0.coords t) a = (![10400, 128] : Fin 2 → Nat) a := congrFun (xsize_1 t (by omega)) a
      have hj : (j a).val < win0_1.xsize (grid0.coords t) a := (j a).isLt
      rw [hx]; rw [hy] at hj; exact hj
  show win0_1.fill _ d _ (win0_1.xinj (grid0.coords t) j) = _
  unfold Window.fill; rw [dif_pos hm]

end Cert.KernelIdeal.Hand

end
-- ==== Proof.Oblig.lean ====
import proofs.«131046_g35527969473089_cont_8to1_b_1767_21_alg».proof.Proof.Before

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body obligation -/

/-- A store or a load through the box at offsets equal to `![k, 0, 0]` is one through slab `k`. -/
theorem overlay_slab {off : Fin 3 → Nat} (k : ℕ) (hk : k < 7) (hoff : off = ![k, 0, 0])
    (inb : ∀ a, off a + S1x64x12800.size a ≤ S7x64x12800.size a) (xs4 : Vec F S7x64x12800 .bf16) (w : FVec F S1x64x12800 .bf16) :
    (Rect.unit (s := S7x64x12800) off S1x64x12800.size inb).overlay xs4 w = (slab k hk).overlay xs4 w := by
  subst hoff; rfl
theorem ld_slab {off : Fin 3 → Nat} (k : ℕ) (hk : k < 7) (hoff : off = ![k, 0, 0])
    (inb : ∀ a, off a + S1x64x12800.size a ≤ S7x64x12800.size a) (xs4 : Vec F S7x64x12800 .bf16) :
    View.ld xs4 (Rect.unit (s := S7x64x12800) off S1x64x12800.size inb) = View.ld xs4 (slab k hk) := by
  subst hoff; rfl

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) : (dats m 0 c).leaves 0 t
    = iprop(∃ d, owns (c : Thread nD τ) (ms0 t) fullShare (win0_0.fill (grid0.coords t) d (win0_0.cut (grid0.coords t) (blkA m c t.val)))) := by
  unfold Dat.leaves; rw [after_0]; rfl
theorem leaves_1 (c : Dev nD) (t : Fin cfg0.N) : (dats m 0 c).leaves 1 t
    = iprop(∃ d, owns (c : Thread nD τ) (ms1 t) fullShare (win0_1.fill (grid0.coords t) d (win0_1.cut (grid0.coords t) (blkE m c t.val)))) := by
  unfold Dat.leaves; rw [after_1]; rfl
theorem leaves_2_idle (c : Dev nD) (t : Fin cfg0.N) (h : t.val < 7) : (dats m 0 c).leaves 2 t
    = iprop(∃ d, owns (c : Thread nD τ) (ms2 t) fullShare ((dats m 0 c).before 2 t d)) :=
  (dats m 0 c).leaves_idle 2 t (idle_2 t h) (noflush_2 t h)
theorem leaves_2_live (c : Dev nD) (t : Fin cfg0.N) (h : 7 ≤ t.val) : (dats m 0 c).leaves 2 t
    = iprop(∃ d, owns (c : Thread nD τ) (ms2 t) fullShare (win0_2.fill (grid0.coords t) d (win0_2.cut (grid0.coords t) (outAfter m c t.val)))) := by
  unfold Dat.leaves; rw [live_2 t h, after_2]; rfl

theorem Phi_castSucc (c : Dev nD) (t : Fin cfg0.N) : (dats m 0 c).Φ t.castSucc = PhiS m c t.val := rfl
theorem Phi_succ (c : Dev nD) (t : Fin cfg0.N) : (dats m 0 c).Φ t.succ = PhiS m c (t.val + 1) := rfl

set_option maxHeartbeats 4000000 in
/-- The body at any step: the conditions' closed forms say which of the four shapes the step has; the invariant
    hands the body the stash and the accumulator as the step before left them and takes them back as this one does. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_0, leaves_1]
  rw [show (dats m 0 c).owesAt () t.succ = (dats m 0 c).owesAt () t.castSucc from rfl]
  rw [Phi_castSucc, Phi_succ]
  have h15 : cfg0.N = 15 := N_0
  have htlt := t.isLt
  by_cases h0 : t.val = 0
  · -- step 0
    have hc1 : cond1 (grid0.coords t) := (hcond1 t).mpr h0
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    have hoff : k0_off1 (grid0.coords t) = ![0, 0, 0] := (off1_eq t (by omega)).trans (by rw [h0])
    rw [leaves_2_idle m c t (by omega)]
    have f0 := fun d => (before_0_lo m c t (by omega) d).trans (fill_0_lo m c t (by omega) d)
    have f1 := fun d => (before_1_lo m c t (by omega) d).trans (fill_1_lo m c t (by omega) d)
    rw [h0] at f0 f1
    simp only [f0, f1]
    rw [h0]
    simp only [PhiS]
    rw [PhiA_eq]
    iintro ⟨⟨⟨⟨%x4, H4⟩, H5⟩, Hg⟩, Ho, ⟨%d0, H0⟩, ⟨%d1, H1⟩, H2⟩
    iapply (run_first c (grid0.coords t) (ms0 t) (hs0 t) (ms1 t) (hs1 t) (ms2 t) (hs2 t) scStash (Memref.isWhole_whole _) scLat (Memref.isWhole_whole _) hc1 hc2 hc3 hc4 (blkA m c 0) (blkE m c 0) x4 Set.univ _)
    isplitl [H0]; · iexact H0
    isplitl [H1]; · iexact H1
    isplitl [H4]; · iexact H4
    isplitl [H5]; · iexact H5
    iintro ⟨H0, H1, H4, H5⟩
    isplitl [H4 H5 Hg]
    · isplitl [H4]
      · iexists _; isplitr
        swap; · iexact H4
        ipureintro
        rw [overlay_slab 0 (by omega) hoff]; exact stashOk_zero m c x4
      isplitl [H5]
      · rw [show latAfter m c 0 = k0_pay4 (blkA m c 0) (blkE m c 0) (k0_pay1 (F := F)) from rfl]; iexact H5
      iexact Hg
    isplitl [Ho]; · iexact Ho
    isplitl [H0]; · iexists (blkA m c 0); rw [Window.fill_cut]; iexact H0
    isplitl [H1]; · iexists (blkE m c 0); rw [Window.fill_cut]; iexact H1
    iexact H2
  by_cases h6 : t.val < 7
  · -- steps 1 to 6
    obtain ⟨k, hk⟩ : ∃ k, t.val = k + 1 := ⟨t.val - 1, by omega⟩
    have hc1 : ¬cond1 (grid0.coords t) := fun h => h0 ((hcond1 t).mp h)
    have hc2 : cond2 (grid0.coords t) := (hcond2 t).mpr h6
    have hc3 : ¬cond3 (grid0.coords t) := fun h => by have := (hcond3 t).mp h; omega
    have hc4 : ¬cond4 (grid0.coords t) := fun h => by have := (hcond4 t).mp h; omega
    have hoff : k0_off1 (grid0.coords t) = ![k + 1, 0, 0] := (off1_eq t h6).trans (by rw [hk])
    rw [leaves_2_idle m c t h6]
    have f0 := fun d => (before_0_lo m c t (by omega) d).trans (fill_0_lo m c t h6 d)
    have f1 := fun d => (before_1_lo m c t (by omega) d).trans (fill_1_lo m c t h6 d)
    rw [hk] at f0 f1
    simp only [f0, f1]
    rw [hk]
    simp only [PhiS]
    iintro ⟨⟨⟨%x4, %hx4, H4⟩, H5, Hg⟩, Ho, ⟨%d0, H0⟩, ⟨%d1, H1⟩, H2⟩
    iapply (run_acc c (grid0.coords t) (ms0 t) (hs0 t) (ms1 t) (hs1 t) (ms2 t) (hs2 t) scStash (Memref.isWhole_whole _) scLat (Memref.isWhole_whole _) hc1 hc2 hc3 hc4 (blkA m c (k + 1)) (blkE m c (k + 1)) x4 (latAfter m c k) Set.univ _)
    isplitl [H0]; · iexact H0
    isplitl [H1]; · iexact H1
    isplitl [H4]; · iexact H4
    isplitl [H5]; · iexact H5
    iintro ⟨H0, H1, H4, H5⟩
    isplitl [H4 H5 Hg]
    · isplitl [H4]
      · iexists _; isplitr
        swap; · iexact H4
        ipureintro
        rw [overlay_slab (k + 1) (by omega) hoff]; exact stashOk_step m c k (by omega) x4 hx4
      isplitl [H5]
      · rw [latAfter_acc m c k (by omega)]; iexact H5
      iexact Hg
    isplitl [Ho]; · iexact Ho
    isplitl [H0]; · iexists (blkA m c (k + 1)); rw [Window.fill_cut]; iexact H0
    isplitl [H1]; · iexists (blkE m c (k + 1)); rw [Window.fill_cut]; iexact H1
    iexact H2
  by_cases h7 : t.val = 7
  · -- step 7: the ragged last block
    have hk : t.val = 6 + 1 := h7
    have hc1 : ¬cond1 (grid0.coords t) := fun h => h0 ((hcond1 t).mp h)
    have hc2 : ¬cond2 (grid0.coords t) := fun h => h6 ((hcond2 t).mp h)
    have hc3 : cond3 (grid0.coords t) := (hcond3 t).mpr h7
    have hc4 : ¬cond4 (grid0.coords t) := fun h => by have := (hcond4 t).mp h; omega
    have hA : blkA m c (6 + 1) = win0_0.fill (grid0.coords t) (fun _ => Scalar.ofBits .f32 0#32) (iblk m c 0 t) := by
      rw [← hk]; exact blkA_eq m c t (by omega)
    have hE : blkE m c (6 + 1) = win0_1.fill (grid0.coords t) (fun _ => Scalar.ofBits .f32 0#32) (iblk m c 1 t) := by
      rw [← hk]; exact blkE_eq m c t (by omega)
    rw [leaves_2_live m c t (by omega)]
    simp only [before_0_lo m c t (by omega), before_1_lo m c t (by omega)]
    rw [hk]
    simp only [PhiS]
    iintro ⟨⟨⟨%x4, %hx4, H4⟩, H5, Hg⟩, Ho, ⟨%d0, H0⟩, ⟨%d1, H1⟩, ⟨%d2, H2⟩⟩
    iapply (run_tail c (grid0.coords t) (ms0 t) (hs0 t) (ms1 t) (hs1 t) (ms2 t) (hs2 t) scStash (Memref.isWhole_whole _) scLat (Memref.isWhole_whole _) hc1 hc2 hc3 hc4 (win0_0.fill (grid0.coords t) d0 (iblk m c 0 t)) (win0_1.fill (grid0.coords t) d1 (iblk m c 1 t)) (latAfter m c 6) Set.univ _)
    isplitl [H0]; · iexact H0
    isplitl [H1]; · iexact H1
    isplitl [H2]; · iexists _; iexact H2
    isplitl [H5]; · iexact H5
    iintro ⟨H0, H1, H3, H5⟩
    isplitl [H4 H5 Hg]
    · isplitl [H4]
      · iexists x4; isplitr
        · ipureintro; exact stashOk_mono m c 6 (6 + 1) (Nat.le_refl _) x4 hx4
        iexact H4
      isplitl [H5]
      · rw [show latAfter m c (6 + 1) = k0_pay7 (blkA m c (6 + 1)) (blkE m c (6 + 1)) (latAfter m c 6) from latAfter_tail m c, hA, hE]
        erw [pay7_fill t (by omega) (fun _ => Scalar.ofBits .f32 0#32) d0 (iblk m c 0 t) (fun _ => Scalar.ofBits .f32 0#32) d1 (iblk m c 1 t) (latAfter m c 6)]
        iexact H5
      iexact Hg
    isplitl [Ho]; · iexact Ho
    isplitl [H0]; · iexists d0; rw [hA, Window.cut_fill]; iexact H0
    isplitl [H1]; · iexists d1; rw [hE, Window.cut_fill]; iexact H1
    iexists (outAfter m c (6 + 1)); rw [Window.fill_cut]
    rw [show outAfter m c (6 + 1) = k0_pay8 (blkA m c (6 + 1)) (blkE m c (6 + 1)) (latAfter m c 6) from if_pos rfl, hA, hE]
    erw [pay8_fill t (by omega) (fun _ => Scalar.ofBits .f32 0#32) d0 (iblk m c 0 t) (fun _ => Scalar.ofBits .f32 0#32) d1 (iblk m c 1 t) (latAfter m c 6)]
    iexact H3
  · -- steps 8 to 14: emit
    have h8 : 8 ≤ t.val := by omega
    obtain ⟨k, hk⟩ : ∃ k, t.val = k + 1 := ⟨t.val - 1, by omega⟩
    have hc1 : ¬cond1 (grid0.coords t) := fun h => h0 ((hcond1 t).mp h)
    have hc2 : ¬cond2 (grid0.coords t) := fun h => h6 ((hcond2 t).mp h)
    have hc3 : ¬cond3 (grid0.coords t) := fun h => h7 ((hcond3 t).mp h)
    have hc4 : cond4 (grid0.coords t) := (hcond4 t).mpr h8
    have hoff : k0_off2 (grid0.coords t) = ![k + 1 - 8, 0, 0] := (off2_eq t h8).trans (by rw [hk])
    have hh0 := hold_0 m c t h8
    have hh1 := hold_1 m c t h8
    rw [leaves_2_live m c t (by omega)]
    rw [hk] at hh0 hh1
    rw [hk]
    simp only [PhiS]
    iintro ⟨⟨⟨%x4, %hx4, H4⟩, H5, Hg⟩, Ho, ⟨%d0, H0⟩, ⟨%d1, H1⟩, ⟨%d2, H2⟩⟩
    obtain ⟨d0', e0⟩ := hh0 d0
    obtain ⟨d1', e1⟩ := hh1 d1
    rw [e0, e1]
    iapply (run_emit c (grid0.coords t) (ms0 t) (hs0 t) (ms1 t) (hs1 t) (ms2 t) (hs2 t) scStash (Memref.isWhole_whole _) scLat (Memref.isWhole_whole _) hc1 hc2 hc3 hc4 x4 (latAfter m c k) Set.univ _)
    isplitl [H2]; · iexists _; iexact H2
    isplitl [H4]; · iexact H4
    isplitl [H5]; · iexact H5
    iintro ⟨H3, H4, H5⟩
    isplitl [H4 H5 Hg]
    · isplitl [H4]
      · iexists x4; isplitr
        · ipureintro; exact stashOk_mono m c k (k + 1) (by omega) x4 hx4
        iexact H4
      isplitl [H5]
      · rw [latAfter_emit m c k (by omega)]; iexact H5
      iexact Hg
    isplitl [Ho]; · iexact Ho
    isplitl [H0]; · iexists d0'; iexact H0
    isplitl [H1]; · iexists d1'; iexact H1
    iexists (outAfter m c (k + 1)); rw [Window.fill_cut]
    have hld : View.ld x4 (Rect.unit (s := S7x64x12800) (k0_off2 (grid0.coords t)) S1x64x12800.size (k0_off2_inb (grid0.coords t) hc4))
        = k0_pay3 (blkA m c (k + 1 - 8)) :=
      (ld_slab (k + 1 - 8) (by omega) hoff _ x4).trans (hx4 (k + 1 - 8) (by omega) (by omega))
    rw [show outAfter m c (k + 1) = k0_pay9 (k0_pay3 (blkA m c (k + 1 - 8))) (latAfter m c 7) from if_neg (by omega),
      ← hld, ← latAfter_const m c k (by omega)]
    iexact H3

end Cert.KernelIdeal.Hand

end
-- ==== Proof.FrameRun.lean ====
import proofs.«131046_g35527969473089_cont_8to1_b_1767_21_alg».proof.Proof.Oblig

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

/-- The library's body obligation, at every step. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first step. -/
theorem hin (c : Dev nD) : Pipeline.ΦA spec0 c ⊢ (dats m 0 c).Φ 0 := by
  rw [show (dats m 0 c).Φ 0 = PhiS m c 0 from rfl]
  exact Idealize.SL.BI.Entails.refl _

/-- After the last step the invariant gives the region's own back: what the stash and the accumulator hold is
    forgotten. -/
theorem hout (c : Dev nD) : (dats m 0 c).Φ (Fin.last cfg0.N) ⊢ Pipeline.ΦA spec0 c := by
  rw [show (dats m 0 c).Φ (Fin.last cfg0.N) = PhiS m c (14 + 1) from rfl]
  simp only [PhiS]
  rw [PhiA_eq]
  iintro ⟨⟨%x4, -, H4⟩, H5, Hg⟩
  isplitl [H4 H5]
  · isplitl [H4]
    · iexists _; iexact H4
    · iexists _; iexact H5
  iexact Hg

set_option backward.isDefEq.respectTransparency.types false in
/-- At the compiled mesh, for any values, from any memory with zero counters: every weakly fair execution of @main
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.ValOut.lean ====
import proofs.«131046_g35527969473089_cont_8to1_b_1767_21_alg».proof.Proof.ValLat
import proofs.«131046_g35527969473089_cont_8to1_b_1767_21_alg».proof.Proof.FrameRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ) (ρ : Dev nD → PrngReg)

/-! The result array on the extended reals: every block the pipeline writes back is its block of ONE function of
    the argument arrays — at (n, d) the sum over the 64 columns h of adjT[h, n] times the complete accumulator at
    (h, d) — and the written-back blocks cover the array. -/

/-- The transposed adjacency the region finds, and the complete accumulator, as extended reals at coordinates. -/
def adjT (c : Dev nD) (h : Fin 64) (n : Fin 100000) : EReal := V m c main_v0 (ix2 h n)
def latF (c : Dev nD) (h : Fin 64) (d : Fin 128) : EReal := latAfter m c 7 (ix2 h d)

/-- The result as one function of the arrays the region finds. -/
def G (c : Dev nD) : S100000x128.Idx → EReal := fun i =>
  ∑ h : Fin 64, adjT m c h ⟨(i 0).val, idx2_lt0 i⟩ * latF m c h ⟨(i 1).val, idx2_lt1 i⟩

theorem G_apply (c : Dev nD) (n : Fin 100000) (d : Fin 128) (i : S100000x128.Idx) (h0 : (i 0).val = n.val) (h1 : (i 1).val = d.val) :
    G m c i = ∑ h : Fin 64, adjT m c h n * latF m c h d := by
  unfold G
  have e0 : (⟨(i 0).val, idx2_lt0 i⟩ : Fin 100000) = n := Fin.ext h0
  have e1 : (⟨(i 1).val, idx2_lt1 i⟩ : Fin 128) = d := Fin.ext h1
  rw [e0, e1]

/-- What a step writes back is its block of `G`. -/
theorem flushed_eq (c : Dev nD) (t : Fin cfg0.N) (hf : (cfg0.win 2).flush t = true) :
    (dats m 0 c).flushed 2 t = ((cfg0.win 2).blk t).view.read (Elt Ideal) (G m c) := by
  have h15 : cfg0.N = 15 := N_0
  have htlt := t.isLt
  have h7 : 7 ≤ t.val := by
    by_contra hlt
    have := noflush_2 t (by omega)
    rw [this] at hf; exact Bool.false_ne_true hf
  show (cfg0.win 2).cut (grid0.coords t) ((dats m 0 c).after 2 t) = _
  rw [after_2]
  funext y
  have hy0 : (y 0).val < if t.val < 8 then 10400 else 12800 := by
    have hx : win0_2.xsize (grid0.coords t) (0 : Fin 2) = (![if t.val < 8 then 10400 else 12800, 128] : Fin 2 → Nat) 0 := congrFun (xs_2 t) 0
    have hy : (y 0).val < win0_2.xsize (grid0.coords t) (0 : Fin 2) := (y 0).isLt
    rw [hx] at hy; exact hy
  have hy1 : (y 1).val < 128 := by
    have hx : win0_2.xsize (grid0.coords t) (1 : Fin 2) = (![if t.val < 8 then 10400 else 12800, 128] : Fin 2 → Nat) 1 := congrFun (xs_2 t) 1
    have hy : (y 1).val < win0_2.xsize (grid0.coords t) (1 : Fin 2) := (y 1).isLt
    rw [hx] at hy; exact hy
  have hy0' : (y 0).val < 12800 := by split at hy0 <;> omega
  show outAfter m c t.val (win0_2.xinj (grid0.coords t) y) = G m c ((win0_2.blk t).view.emb y)
  have ej : win0_2.xinj (grid0.coords t) y = ix2 (⟨(y 0).val, hy0'⟩ : Fin 12800) (⟨(y 1).val, hy1⟩ : Fin 128) :=
    funext fun a => by match a with | ⟨0, _⟩ => rfl | ⟨1, _⟩ => rfl
  rw [ej]
  have ei0 : (((win0_2.blk t).view.emb y) (0 : Fin 2)).val = (if t.val < 8 then 7 else t.val - 8) * 12800 + (y 0).val := by
    show win0_2.index t (0 : Fin 2) * 12800 + 1 * (y 0).val = _
    rw [(idx_2 t).1]; omega
  have ei1 : (((win0_2.blk t).view.emb y) (1 : Fin 2)).val = (y 1).val := by
    show win0_2.index t (1 : Fin 2) * 128 + 1 * (y 1).val = _
    rw [(idx_2 t).2]; omega
  by_cases e7 : t.val = 7
  · have hlt : (y 0).val < 10400 := by rw [if_pos (by omega)] at hy0; exact hy0
    have hin : 12800 * 7 + (y 0).val < 100000 := by omega
    rw [G_apply m c ⟨12800 * 7 + (y 0).val, hin⟩ ⟨(y 1).val, hy1⟩ _ (ei0.trans (by rw [if_pos (by omega : t.val < 8)])) ei1]
    rw [e7, show outAfter m c 7 = k0_pay8 (blkA m c 7) (blkE m c 7) (latAfter m c 6) from if_pos rfl, pay8_apply]
    refine Finset.sum_congr rfl fun h _ => ?_
    rw [if_pos hlt, blkA_apply m c 7 (by omega) h _ hin, ← pay7_apply, ← latAfter_tail]
    rfl
  · have h8 : 8 ≤ t.val := by omega
    have hin : 12800 * (t.val - 8) + (y 0).val < 100000 := by omega
    rw [G_apply m c ⟨12800 * (t.val - 8) + (y 0).val, hin⟩ ⟨(y 1).val, hy1⟩ _ (ei0.trans (by rw [if_neg (by omega : ¬ t.val < 8)]; show _ = 12800 * (t.val - 8) + (y 0).val; omega)) ei1]
    rw [show outAfter m c t.val = k0_pay9 (k0_pay3 (blkA m c (t.val - 8))) (latAfter m c 7) from if_neg e7, pay9_apply]
    refine Finset.sum_congr rfl fun h _ => ?_
    rw [blkA_apply m c (t.val - 8) (by omega) h _ hin]
    rfl

/-- Every index of the result array is in a written-back block: rows below 89600 in the block of step 8 + row/12800,
    the others in the last block, written at step 7. -/
theorem cover (i : S100000x128.Idx) :
    ∃ t : Fin cfg0.N, (cfg0.win 2).flush t = true ∧ i ∈ ((cfg0.win 2).blk t).view.set := by
  have h15 : cfg0.N = 15 := N_0
  have hi0 : (i 0).val < 100000 := idx2_lt0 i
  have hi1 : (i 1).val < 128 := idx2_lt1 i
  have mem : ∀ t : Fin cfg0.N, i ∈ ((cfg0.win 2).blk t).view.set ↔
      ∀ a : Fin 2, win0_2.index t a * S12800x128.size a ≤ (i a).val ∧ (i a).val < win0_2.index t a * S12800x128.size a + win0_2.xsize (grid0.coords t) a := fun t => by
    show i ∈ ((View.whole main_v1).slice (win0_2.rect t)).set ↔ _
    rw [View.set_slice_whole, Rect.mem_set_unit]
    exact Iff.rfl
  obtain ⟨t, ht⟩ : ∃ t : Fin cfg0.N, t.val = if (i 0).val < 89600 then 8 + (i 0).val / 12800 else 7 := by
    by_cases hlo : (i 0).val < 89600
    · exact ⟨⟨8 + (i 0).val / 12800, by omega⟩, by rw [if_pos hlo]⟩
    · exact ⟨⟨7, by omega⟩, by rw [if_neg hlo]⟩
  have hx0 : win0_2.xsize (grid0.coords t) (0 : Fin 2) = if t.val < 8 then 10400 else 12800 := congrFun (xs_2 t) 0
  have hx1 : win0_2.xsize (grid0.coords t) (1 : Fin 2) = 128 := congrFun (xs_2 t) 1
  have hix0 := (idx_2 t).1
  have hix1 := (idx_2 t).2
  refine ⟨t, flush_2 t (by split at ht <;> omega), (mem t).mpr fun a => ?_⟩
  match a with
  | ⟨0, _⟩ =>
    show win0_2.index t (0 : Fin 2) * 12800 ≤ (i 0).val ∧ (i 0).val < win0_2.index t (0 : Fin 2) * 12800 + win0_2.xsize (grid0.coords t) (0 : Fin 2)
    rw [hix0, hx0]
    by_cases hlo : (i 0).val < 89600
    · rw [if_pos hlo] at ht
      rw [if_neg (by omega), if_neg (by omega)]
      omega
    · rw [if_neg hlo] at ht
      rw [if_pos (by omega), if_pos (by omega)]
      omega
  | ⟨1, _⟩ =>
    show win0_2.index t (1 : Fin 2) * 128 ≤ (i 1).val ∧ (i 1).val < win0_2.index t (1 : Fin 2) * 128 + win0_2.xsize (grid0.coords t) (1 : Fin 2)
    rw [hix1, hx1]; omega

/-- The result array after the run. -/
theorem final (c : Dev nD) : (dats m 0 c).arrAt 2 cfg0.N = G m c :=
  (dats m 0 c).arrAt_eq_of_cover 2 (G m c) (fun t hf => flushed_eq m c t hf) cover

/-- The run, read: the result array ends at `G` of the arrays the region finds, the arguments as they were. -/
theorem run_value : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main (F := Ideal) m ρ)

end Cert.KernelIdeal.Hand

end
-- ==== Proof.RefSide.lean ====
import proofs.«131046_g35527969473089_cont_8to1_b_1767_21_alg».proof.Proof.ValOut
import proofs.«131046_g35527969473089_cont_8to1_b_1767_21_alg».proof.Proof.Gen.ReferenceIdeal.Read

set_option maxRecDepth 16384

noncomputable section

namespace Cert.KernelIdeal.RefSide

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ)

/-! The reference computes the same function: its first product, read at (h, d), is the sum over all rows that the
    kernel's accumulator ends holding, and its second product is the kernel's last one. -/

/-- The transposed adjacency the region finds is the reference's transpose of the first argument. -/
theorem V_v0 (c : Dev nD) :
    (V m c main_v0 : S64x100000.Idx → EReal) = Cert.ReferenceIdeal.Read.val_main_v0 (F := Ideal) (m ((c.tc : Thread nD τ).loc main_arg0)) := by
  dsimp only [Gen.V, Gen.hostOps0]; after_results; rfl

theorem adj_ref (c : Dev nD) (k : Fin 64) (n : Fin 100000) :
    adjT m c k n = m ((c.tc : Thread nD τ).loc main_arg0) (ix2 n k) := by
  unfold adjT
  have h := congrFun (V_v0 m c) (ix2 k n)
  refine h.trans ?_
  refine (Cert.ReferenceIdeal.Read.val_main_v0_apply _ _).trans ?_
  congr 1
  funext a; match a with | ⟨0, _⟩ => rfl | ⟨1, _⟩ => rfl

theorem lat_ref (c : Dev nD) (k : Fin 64) (d : Fin 128) :
    Cert.ReferenceIdeal.Read.val_main_v1 (F := Ideal) (m ((c.tc : Thread nD τ).loc main_arg0)) (m ((c.tc : Thread nD τ).loc main_arg1)) (ix2 k d)
      = latF m c k d := by
  unfold latF
  refine (Cert.ReferenceIdeal.Read.val_main_v1_apply _ _ _).trans ?_
  refine Eq.trans ?_ (lat_full m c k d).symm
  refine Eq.trans ?_ (Fin.sum_univ_eq_sum_range (fun n => aT m c k n * eM m c n d) 100000)
  refine Finset.sum_congr rfl fun n _ => ?_
  rw [aT, eM, dif_pos n.isLt, dif_pos n.isLt]
  congr 1
  · refine (Cert.ReferenceIdeal.Read.val_main_v0_apply _ _).trans ?_
    refine Eq.trans ?_ (adj_ref m c k ⟨n.val, n.isLt⟩).symm
    congr 1
    funext a; match a with | ⟨0, _⟩ => rfl | ⟨1, _⟩ => rfl
  · refine Eq.trans ?_ (congrFun (V_main_arg1 m c) _).symm
    congr 1
    funext a; match a with | ⟨0, _⟩ => rfl | ⟨1, _⟩ => rfl

/-- The reference's result is the kernel's. -/
theorem ref_eq (c : Dev nD) :
    Cert.ReferenceIdeal.Read.val_main_v2 (F := Ideal) (m ((c.tc : Thread nD τ).loc main_arg0)) (m ((c.tc : Thread nD τ).loc main_arg1)) = G m c := by
  funext i
  refine (Cert.ReferenceIdeal.Read.val_main_v2_apply _ _ i).trans ?_
  refine Eq.trans ?_ (G_apply m c ⟨(i 0).val, idx2_lt0 i⟩ ⟨(i 1).val, idx2_lt1 i⟩ i rfl rfl).symm
  refine Finset.sum_congr rfl fun k _ => ?_
  have ha : m ((c.tc : Thread nD τ).loc main_arg0) (Cert.ReferenceIdeal.Read.lidx_main_v2 i k) = adjT m c k ⟨(i 0).val, idx2_lt0 i⟩ := by
    refine Eq.trans ?_ (adj_ref m c k ⟨(i 0).val, idx2_lt0 i⟩).symm
    refine congrArg (m ((c.tc : Thread nD τ).loc main_arg0)) ?_
    funext a; match a with | ⟨0, _⟩ => rfl | ⟨1, _⟩ => rfl
  have hb : Cert.ReferenceIdeal.Read.val_main_v1 (F := Ideal) (m ((c.tc : Thread nD τ).loc main_arg0)) (m ((c.tc : Thread nD τ).loc main_arg1)) (Cert.ReferenceIdeal.Read.ridx_main_v2 i k)
      = latF m c k ⟨(i 1).val, idx2_lt1 i⟩ := by
    refine Eq.trans ?_ (lat_ref m c k ⟨(i 1).val, idx2_lt1 i⟩)
    refine congrArg (Cert.ReferenceIdeal.Read.val_main_v1 (F := Ideal) (m ((c.tc : Thread nD τ).loc main_arg0)) (m ((c.tc : Thread nD τ).loc main_arg1))) ?_
    funext a; match a with | ⟨0, _⟩ => rfl | ⟨1, _⟩ => rfl
  exact congrArg₂ (fun (a b : EReal) => a * b) ha hb

end Cert.KernelIdeal.RefSide

end
-- ==== Proof.lean ====
/-
  ret = adj · (adjᵀ · embeds) over adj : f32[100000, 64], embeds : f32[100000, 128], computed by one fused kernel on a
  grid of 15 steps against jnp's two matrix products.

  The kernel takes adjᵀ (a host transpose of adj) in column blocks of 12800 and embeds in row blocks of 12800; the
  eighth block of each is ragged (10400 rows inside the array) and is cut at the array's end. Steps 0..6 round a block
  of each to bf16, keep the adjᵀ block in a stash and add the blocks' product to a 64 × 128 accumulator (zeroed at
  step 0). Step 7 does the same for the ragged block with both operands masked to zero past row 10400 — so whatever the
  staging buffers hold past the arrays' end never reaches a result — and at once stores its own result block, the
  masked adjᵀ blockᵀ times the now complete accumulator. Steps 8..14 store, for the stashed blocks 0..6 in turn, the
  blockᵀ times the accumulator.

  Frames (at the word-level instance and at the extended reals, one proof read at both): the body is run in its four
  shapes (step 0; steps 1..6; step 7; steps 8..14); the invariant carried from step to step names what the two scratch
  buffers hold — the accumulator exactly, the stash on the slabs already written — and the two input buffers hold the
  last block from step 8 on because nothing fetches them again.

  Value, on the extended reals, where a change of float format is the identity and a matrix product is the plain sum
  of products: the accumulator ends at Σₙ adjᵀ[h, n] · embeds[n, d] over all 100000 rows — the seven whole blocks and the
  10400 rows of the last laid end to end, a regrouping of a finite sum that needs no finiteness of its terms, the masked
  rows contributing 0 · 0 —, which is the reference's first product; every block written back is its block of
  (n, d) ↦ Σₕ adjᵀ[h, n] · acc[h, d], the written blocks cover the result array, and that function is the reference's
  second product. The precondition (finite inputs) is not used.
-/
import proofs.«131046_g35527969473089_cont_8to1_b_1767_21_alg».proof.Defs
import proofs.«131046_g35527969473089_cont_8to1_b_1767_21_alg».proof.Proof.Gen.Kernel
import proofs.«131046_g35527969473089_cont_8to1_b_1767_21_alg».proof.Proof.Gen.KernelIdeal
import proofs.«131046_g35527969473089_cont_8to1_b_1767_21_alg».proof.Proof.Gen.ReferenceIdeal
import proofs.«131046_g35527969473089_cont_8to1_b_1767_21_alg».proof.Proof.Gen.Pre_finite_inputs
import proofs.«131046_g35527969473089_cont_8to1_b_1767_21_alg».proof.Proof.Gen.ReferenceIdeal.Run
import proofs.«131046_g35527969473089_cont_8to1_b_1767_21_alg».proof.Proof.KFrameRun
import proofs.«131046_g35527969473089_cont_8to1_b_1767_21_alg».proof.Proof.RefSide
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are one function of arguments that agree. -/
theorem algebraic : Cert.algebraic_KernelIdeal_ReferenceIdeal := by
  intro m ρ m' ρ' _ hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.KernelIdeal.RefSide.ref_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
